-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x1004 : Shape := ⟨2, ![262144, 1004]⟩
abbrev S262144x5 : Shape := ⟨2, ![262144, 5]⟩
abbrev S_ : Shape := ⟨0, ![]⟩
abbrev S262144x1 : Shape := ⟨2, ![262144, 1]⟩
abbrev S262144 : Shape := ⟨1, ![262144]⟩

class Facts : Prop where
  bcast_S_S262144x1004 : S_.BroadcastsInDim S262144x1004 (![] : Fin 0 → Fin S262144x1004.rank)
  reducesTo_S262144x1004_S_d0_1 : S262144x1004.ReducesTo [0, 1] S_
  h_S_ : 0 < S_.numel
  bcast_S_S262144x5 : S_.BroadcastsInDim S262144x5 (![] : Fin 0 → Fin S262144x5.rank)
  reducesTo_S262144x5_S_d0_1 : S262144x5.ReducesTo [0, 1] S_
  slices_S262144x5_S262144x1_0_4 : S262144x5.Slices ![0, 4] S262144x1
  shapeCasts_S262144x1_S262144 : S262144x1.ShapeCasts S262144
  bcast_S_S262144 : S_.BroadcastsInDim S262144 (![] : Fin 0 → Fin S262144.rank)
  reducesTo_S262144_S_d0 : S262144.ReducesTo [0] S_

variable [Facts]

def fn_part1 {F : FTy → Type} [FloatOps F] (main_v8 : IVec S_ 1) (main_v13 : IVec S262144 1) (main_v16 : IVec S262144 32) (main_v17 : IVec S262144 32) : IVec S_ 1 :=
  let main_v18 : IVec S262144 1 := cmpi .slt main_v16 main_v17
  let main_v19 : IVec S262144 1 := andi main_v13 main_v18
  let main_c_4 : IVec S_ 1 := constantI S_ 1 1#1
  let main_v20 : IVec S_ 1 := (fun x v => Host.reduce IntOp.andi x v reducesTo_S262144_S_d0 h_S_) main_v19 main_c_4
  let main_v21 : IVec S_ 1 := andi main_v8 main_v20
  main_v21

def fn {F : FTy → Type} [FloatOps F] (main_arg0 : FVec F S262144x1004 .f32) (main_arg1 : FVec F S262144x5 .f32) : IVec S_ 1 :=
  let main_v0 : FVec F S262144x1004 .f32 := Host.absf main_arg0
  let main_cst : FVec F S_ .f32 := constant S_ .f32 0x7F800000#32
  let main_v1 : FVec F S262144x1004 .f32 := broadcastInDim S262144x1004 ![] bcast_S_S262144x1004 main_cst
  let main_v2 : IVec S262144x1004 1 := cmpf .olt main_v0 main_v1
  let main_c : IVec S_ 1 := constantI S_ 1 1#1
  let main_v3 : IVec S_ 1 := (fun x v => Host.reduce IntOp.andi x v reducesTo_S262144x1004_S_d0_1 h_S_) main_v2 main_c
  let main_v4 : FVec F S262144x5 .f32 := Host.absf main_arg1
  let main_cst_0 : FVec F S_ .f32 := constant S_ .f32 0x7F800000#32
  let main_v5 : FVec F S262144x5 .f32 := broadcastInDim S262144x5 ![] bcast_S_S262144x5 main_cst_0
  let main_v6 : IVec S262144x5 1 := cmpf .olt main_v4 main_v5
  let main_c_1 : IVec S_ 1 := constantI S_ 1 1#1
  let main_v7 : IVec S_ 1 := (fun x v => Host.reduce IntOp.andi x v reducesTo_S262144x5_S_d0_1 h_S_) main_v6 main_c_1
  let main_v8 : IVec S_ 1 := andi main_v3 main_v7
  let main_v9 : FVec F S262144x1 .f32 := (extractStridedSlice S262144x1 ![0, 4] · slices_S262144x5_S262144x1_0_4) main_arg1
  let main_v10 : FVec F S262144 .f32 := shapeCast S262144 main_v9 shapeCasts_S262144x1_S262144
  let main_v11 : IVec S262144 32 := fptosi 32 main_v10
  let main_c_2 : IVec S_ 32 := constantI S_ 32 0#32
  let main_v12 : IVec S262144 32 := broadcastInDim S262144 ![] bcast_S_S262144 main_c_2
  let main_v13 : IVec S262144 1 := cmpi .sge main_v11 main_v12
  let main_v14 : FVec F S262144x1 .f32 := (extractStridedSlice S262144x1 ![0, 4] · slices_S262144x5_S262144x1_0_4) main_arg1
  let main_v15 : FVec F S262144 .f32 := shapeCast S262144 main_v14 shapeCasts_S262144x1_S262144
  let main_v16 : IVec S262144 32 := fptosi 32 main_v15
  let main_c_3 : IVec S_ 32 := constantI S_ 32 1000#32
  let main_v17 : IVec S262144 32 := broadcastInDim S262144 ![] bcast_S_S262144 main_c_3
  fn_part1 (F := F) main_v8 main_v13 main_v16 main_v17
-- ==== Kernel.lean ====
abbrev S262144x1004 : Shape := ⟨2, ![262144, 1004]⟩
abbrev S262144x5 : Shape := ⟨2, ![262144, 5]⟩
abbrev S2x1x1 : Shape := ⟨3, ![2, 1, 1]⟩
abbrev S1024x1004 : Shape := ⟨2, ![1024, 1004]⟩
abbrev S1024x5 : Shape := ⟨2, ![1024, 5]⟩
abbrev S1x1x1 : Shape := ⟨3, ![1, 1, 1]⟩
abbrev S1x1 : Shape := ⟨2, ![1, 1]⟩
abbrev S1024x4 : Shape := ⟨2, ![1024, 4]⟩
abbrev S1024x1 : Shape := ⟨2, ![1024, 1]⟩
abbrev S1024x1000 : Shape := ⟨2, ![1024, 1000]⟩
abbrev S1024 : Shape := ⟨1, ![1024]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S262144x1004, .f32⟩
  | .hbm, ⟨1, _⟩ => ⟨S262144x5, .f32⟩
  | .hbm, ⟨2, _⟩ => ⟨S2x1x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1024x1004, .f32⟩
  | .local _ .vmem, ⟨1, _⟩ => ⟨S1024x1004, .f32⟩
  | .local _ .vmem, ⟨2, _⟩ => ⟨S1024x5, .f32⟩
  | .local _ .vmem, ⟨3, _⟩ => ⟨S1024x5, .f32⟩
  | .local _ .vmem, ⟨4, _⟩ => ⟨S1x1x1, .f32⟩
  | .local _ .vmem, ⟨5, _⟩ => ⟨S1x1x1, .f32⟩
  | .local _ .vmem, ⟨6, _⟩ => ⟨S1x1, .f32⟩
  | _, _ => ⟨S262144x1004, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v66 : BitVec 1 := Scalar.cmpi .eq arg1 c127_i32
  let v67 : BitVec 32 := Scalar.extui v66
  let c0_i32_23 : BitVec 32 := 0#32
  let v68 : BitVec 1 := Scalar.cmpi .ne v67 c0_i32_23
  v68

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1004 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1004_S1024x4_0_0 : ∀ a, (![0, 0] : Fin 2 → Nat) a + S1024x4.size a ≤ S1024x1004.size a
  h_S1024x4 : 0 < S1024x4.numel
  inb_S1024x5_S1024x1_0_0 : ∀ a, (![0, 0] : Fin 2 → Nat) a + S1024x1.size a ≤ S1024x5.size a
  h_S1024x1 : 0 < S1024x1.numel
  inb_S1024x5_S1024x1_0_1 : ∀ a, (![0, 1] : Fin 2 → Nat) a + S1024x1.size a ≤ S1024x5.size a
  inb_S1024x5_S1024x1_0_2 : ∀ a, (![0, 2] : Fin 2 → Nat) a + S1024x1.size a ≤ S1024x5.size a
  inb_S1024x5_S1024x1_0_3 : ∀ a, (![0, 3] : Fin 2 → Nat) a + S1024x1.size a ≤ S1024x5.size a
  slices_S1024x4_o0_0_S1024x1 : S1024x4.Slices ![0, 0] S1024x1
  slices_S1024x4_o0_1_S1024x1 : S1024x4.Slices ![0, 1] S1024x1
  slices_S1024x4_o0_2_S1024x1 : S1024x4.Slices ![0, 2] S1024x1
  slices_S1024x4_o0_3_S1024x1 : S1024x4.Slices ![0, 3] S1024x1
  inb_S1024x1004_S1024x1000_0_4 : ∀ a, (![0, 4] : Fin 2 → Nat) a + S1024x1000.size a ≤ S1024x1004.size a
  h_S1024x1000 : 0 < S1024x1000.numel
  inb_S1024x5_S1024x1_0_4 : ∀ a, (![0, 4] : Fin 2 → Nat) a + S1024x1.size a ≤ S1024x5.size a
  reduces_S1024x1000_S1024 : S1024x1000.Reduces [1] S1024
  shapeCasts_S1024_S1024x1 : S1024.ShapeCasts S1024x1
  broadcasts_S1024x1_S1024x1000 : S1024x1.Broadcasts S1024x1000
  iota_S1024x1000_d1_w32 : S1024x1000.Iotas .tc 32 [1]
  reduces_S1024x1_S1 : S1024x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1004.size a ≤ S262144x1004.size a
  hwx0_0 : ∀ i : grid0.Coords, EltTy.bits .f32 = 32 ∨ (Rect.block (s := S262144x1004) S1024x1004.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x5.size a ≤ S262144x5.size a
  hwx0_1 : ∀ i : grid0.Coords, EltTy.bits .f32 = 32 ∨ (Rect.block (s := S262144x5) S1024x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_arg0) S1024x1004.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S262144x1004 : Shape := ⟨2, ![262144, 1004]⟩
abbrev S262144x5 : Shape := ⟨2, ![262144, 5]⟩
abbrev S262144x4 : Shape := ⟨2, ![262144, 4]⟩
abbrev S262144x1 : Shape := ⟨2, ![262144, 1]⟩
abbrev S262144 : Shape := ⟨1, ![262144]⟩
abbrev S_ : Shape := ⟨0, ![]⟩
abbrev S262144x1000 : Shape := ⟨2, ![262144, 1000]⟩
abbrev S262144x1x1 : Shape := ⟨3, ![262144, 1, 1]⟩
abbrev S1 : Shape := ⟨1, ![1]⟩
abbrev S1x1x1 : Shape := ⟨3, ![1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S262144x1004, .f32⟩
  | .hbm, ⟨1, _⟩ => ⟨S262144x5, .f32⟩
  | .hbm, ⟨2, _⟩ => ⟨S262144x4, .f32⟩
  | .hbm, ⟨3, _⟩ => ⟨S262144x1, .f32⟩
  | .hbm, ⟨4, _⟩ => ⟨S262144, .f32⟩
  | .hbm, ⟨5, _⟩ => ⟨S262144x1, .f32⟩
  | .hbm, ⟨6, _⟩ => ⟨S262144, .f32⟩
  | .hbm, ⟨7, _⟩ => ⟨S262144x1, .f32⟩
  | .hbm, ⟨8, _⟩ => ⟨S262144, .f32⟩
  | .hbm, ⟨9, _⟩ => ⟨S262144x1, .f32⟩
  | .hbm, ⟨10, _⟩ => ⟨S262144, .f32⟩
  | .hbm, ⟨11, _⟩ => ⟨S262144, .f32⟩
  | .hbm, ⟨12, _⟩ => ⟨S_, .f32⟩
  | .hbm, ⟨13, _⟩ => ⟨S262144, .f32⟩
  | .hbm, ⟨14, _⟩ => ⟨S262144, .f32⟩
  | .hbm, ⟨15, _⟩ => ⟨S262144, .f32⟩
  | .hbm, ⟨16, _⟩ => ⟨S_, .f32⟩
  | .hbm, ⟨17, _⟩ => ⟨S262144, .f32⟩
  | .hbm, ⟨18, _⟩ => ⟨S262144, .f32⟩
  | .hbm, ⟨19, _⟩ => ⟨S262144, .f32⟩
  | .hbm, ⟨20, _⟩ => ⟨S262144, .f32⟩
  | .hbm, ⟨21, _⟩ => ⟨S262144x1, .f32⟩
  | .hbm, ⟨22, _⟩ => ⟨S262144x1, .f32⟩
  | .hbm, ⟨23, _⟩ => ⟨S262144x1, .f32⟩
  | .hbm, ⟨24, _⟩ => ⟨S262144x1, .f32⟩
  | .hbm, ⟨25, _⟩ => ⟨S262144x4, .f32⟩
  | .hbm, ⟨26, _⟩ => ⟨S262144x4, .f32⟩
  | .hbm, ⟨27, _⟩ => ⟨S262144x4, .f32⟩
  | .hbm, ⟨28, _⟩ => ⟨S_, .f32⟩
  | .hbm, ⟨29, _⟩ => ⟨S262144, .f32⟩
  | .hbm, ⟨30, _⟩ => ⟨S_, .f32⟩
  | .hbm, ⟨31, _⟩ => ⟨S262144, .f32⟩
  | .hbm, ⟨32, _⟩ => ⟨S262144, .f32⟩
  | .hbm, ⟨33, _⟩ => ⟨S262144x1000, .f32⟩
  | .hbm, ⟨34, _⟩ => ⟨S262144x1, .f32⟩
  | .hbm, ⟨35, _⟩ => ⟨S262144, .f32⟩
  | .hbm, ⟨36, _⟩ => ⟨S262144, .i32⟩
  | .hbm, ⟨37, _⟩ => ⟨S_, .f32⟩
  | .hbm, ⟨38, _⟩ => ⟨S262144, .f32⟩
  | .hbm, ⟨39, _⟩ => ⟨S_, .f32⟩
  | .hbm, ⟨40, _⟩ => ⟨S262144, .f32⟩
  | .hbm, ⟨41, _⟩ => ⟨S262144, .f32⟩
  | .hbm, ⟨42, _⟩ => ⟨S262144x1, .f32⟩
  | .hbm, ⟨43, _⟩ => ⟨S262144x1000, .f32⟩
  | .hbm, ⟨44, _⟩ => ⟨S262144x1000, .f32⟩
  | .hbm, ⟨45, _⟩ => ⟨S262144x1000, .f32⟩
  | .hbm, ⟨46, _⟩ => ⟨S_, .f32⟩
  | .hbm, ⟨47, _⟩ => ⟨S262144, .f32⟩
  | .hbm, ⟨48, _⟩ => ⟨S262144x1, .f32⟩
  | .hbm, ⟨49, _⟩ => ⟨S262144x1, .f32⟩
  | .hbm, ⟨50, _⟩ => ⟨S262144x1000, .f32⟩
  | .hbm, ⟨51, _⟩ => ⟨S262144x1000, .f32⟩
  | .hbm, ⟨52, _⟩ => ⟨S262144x1, .i32⟩
  | .hbm, ⟨53, _⟩ => ⟨S_, .i32⟩
  | .hbm, ⟨54, _⟩ => ⟨S262144x1, .i32⟩
  | .hbm, ⟨55, _⟩ => ⟨S262144x1, .i1⟩
  | .hbm, ⟨56, _⟩ => ⟨S_, .i32⟩
  | .hbm, ⟨57, _⟩ => ⟨S262144x1, .i32⟩
  | .hbm, ⟨58, _⟩ => ⟨S262144x1, .i32⟩
  | .hbm, ⟨59, _⟩ => ⟨S262144x1, .i32⟩
  | .hbm, ⟨60, _⟩ => ⟨S262144x1x1, .i32⟩
  | .hbm, ⟨61, _⟩ => ⟨S1, .i32⟩
  | .hbm, ⟨62, _⟩ => ⟨S_, .i32⟩
  | .hbm, ⟨63, _⟩ => ⟨S262144x1x1, .i32⟩
  | .hbm, ⟨64, _⟩ => ⟨S262144x1x1, .i1⟩
  | .hbm, ⟨65, _⟩ => ⟨S1x1x1, .i32⟩
  | .hbm, ⟨66, _⟩ => ⟨S262144x1x1, .i32⟩
  | .hbm, ⟨67, _⟩ => ⟨S262144x1x1, .i1⟩
  | .hbm, ⟨68, _⟩ => ⟨S262144x1x1, .i1⟩
  | .hbm, ⟨69, _⟩ => ⟨S_, .i1⟩
  | .hbm, ⟨70, _⟩ => ⟨S262144x1, .i1⟩
  | .hbm, ⟨71, _⟩ => ⟨S262144x1, .f32⟩
  | .hbm, ⟨72, _⟩ => ⟨S_, .f32⟩
  | .hbm, ⟨73, _⟩ => ⟨S262144x1, .f32⟩
  | .hbm, ⟨74, _⟩ => ⟨S262144x1, .f32⟩
  | .hbm, ⟨75, _⟩ => ⟨S262144, .f32⟩
  | .hbm, ⟨76, _⟩ => ⟨S262144, .f32⟩
  | .hbm, ⟨77, _⟩ => ⟨S_, .f32⟩
  | .hbm, ⟨78, _⟩ => ⟨S262144, .f32⟩
  | .hbm, ⟨79, _⟩ => ⟨S262144, .f32⟩
  | .hbm, ⟨80, _⟩ => ⟨S262144, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S262144x1004, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_call0_cst : Ref sig .tc := ⟨.hbm, 37, rfl⟩
abbrev main_call0_v0 : Ref sig .tc := ⟨.hbm, 38, rfl⟩
abbrev main_call0_cst_0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_cst_1 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_v31 : Ref sig .tc := ⟨.hbm, 51, rfl⟩
abbrev main_v32 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_cst : Ref sig .tc := ⟨.hbm, 72, rfl⟩
abbrev main_call1_v14 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_cst_3 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_4 : Ref sig .tc := ⟨.hbm, 81, rfl⟩
abbrev main_v39 : Ref sig .tc := ⟨.hbm, 82, rfl⟩
abbrev main_cst_5 : Ref sig .tc := ⟨.hbm, 83, rfl⟩
abbrev main_v40 : Ref sig .tc := ⟨.hbm, 84, rfl⟩

abbrev nD : Nat := 1
abbrev τ : Topo := Topo.v7x

variable {F : FTy → Type} [FloatOps F]

class Facts₀ : Prop where
  slices_S262144x1004_S262144x4_0_0 : S262144x1004.Slices ![0, 0] S262144x4
  slices_S262144x5_S262144x1_0_0 : S262144x5.Slices ![0, 0] S262144x1
  shapeCasts_S262144x1_S262144 : S262144x1.ShapeCasts S262144
  slices_S262144x5_S262144x1_0_1 : S262144x5.Slices ![0, 1] S262144x1
  slices_S262144x5_S262144x1_0_2 : S262144x5.Slices ![0, 2] S262144x1
  slices_S262144x5_S262144x1_0_3 : S262144x5.Slices ![0, 3] S262144x1
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x1_S262144x1_S262144x4_d1 : Shape.Concatenates [S262144x1, S262144x1, S262144x1, S262144x1] S262144x4 1
  reducesTo_S262144x4_S262144_d1 : S262144x4.ReducesTo [1] S262144
  h_S_ : 0 < S_.numel
  slices_S262144x1004_S262144x1000_0_4 : S262144x1004.Slices ![0, 4] S262144x1000
  slices_S262144x5_S262144x1_0_4 : S262144x5.Slices ![0, 4] S262144x1
  reducesTo_S262144x1000_S262144_d1 : S262144x1000.ReducesTo [1] S262144
  bcast_S262144x1_S262144x1000_0_1 : S262144x1.BroadcastsInDim S262144x1000 (![0, 1] : Fin 2 → Fin S262144x1000.rank)
  bcast_S_S262144x1 : S_.BroadcastsInDim S262144x1 (![] : Fin 0 → Fin S262144x1.rank)
  shapeCasts_S262144x1_S262144x1x1 : S262144x1.ShapeCasts S262144x1x1
  bcast_S_S262144x1x1 : S_.BroadcastsInDim S262144x1x1 (![] : Fin 0 → Fin S262144x1x1.rank)
  bcast_S1_S1x1x1_2 : S1.BroadcastsInDim S1x1x1 (![2] : Fin 1 → Fin S1x1x1.rank)
  bcast_S1x1x1_S262144x1x1_0_1_2 : S1x1x1.BroadcastsInDim S262144x1x1 (![0, 1, 2] : Fin 3 → Fin S262144x1x1.rank)
  reducesTo_S262144x1x1_S262144x1_d2 : S262144x1x1.ReducesTo [2] S262144x1
  reducesTo_S262144_S_d0 : S262144.ReducesTo [0] S_
  gather_S262144x1000_S262144x1x1_S262144x1_n_1_0_0_1_2_11_wf : GatherDims.WF S262144x1000 S262144x1x1 S262144x1 [] [1] [0] [1] [0] 2 ![1, 1]

variable [Facts₀]

def gather_S262144x1000_S262144x1x1_S262144x1_n_1_0_0_1_2_11 : GatherDims S262144x1000 S262144x1x1 S262144x1 where
  offsetDims := []
  collapsedSliceDims := [1]
  operandBatchingDims := [0]
  startIndicesBatchingDims := [0]
  startIndexMap := [1]
  indexVectorDim := 2
  sliceSizes := ![1, 1]
  wf := gather_S262144x1000_S262144x1x1_S262144x1_n_1_0_0_1_2_11_wf

class Facts : Prop extends Facts₀ where

variable [Facts]
-- ==== Proof.KPieces.lean ====
/-
  What the kernel body leaves behind at one grid point, read as values. The body keeps a running total in a
  one-word scratch: at the first block of a core's half it stores zero, at every block it adds the block's sum of
  row losses to what the scratch holds, and at the last block of the half it copies the total to the output word.
  So each case of the body leaves the scratch at `blockAcc` of the point's two input blocks and of the previous
  total (zero at a first block), and the last case leaves the output at that same total.
-/
import proofs.«162990_j91070486544852_2_alg».proof.Proof.Gen.KernelIdeal.Frame
import Idealize.ShloMosaic.Lib.Pipeline.Value
import Idealize.ShloMosaic.Lib.Tactic

set_option maxRecDepth 16384

noncomputable section

namespace Cert.KernelIdeal.KVal

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- What one grid point leaves in the running total, as a function of its two input blocks and of the total so far:
    the total so far plus the sum over the block's 1024 rows of the row loss. -/
def blockAcc (x0 : Vec F S1024x1004 .f32) (x1 : Vec F S1024x5 .f32) (xs : Vec F S1x1 .f32) : Vec F S1x1 .f32 :=
  k0_pay1
    (k0_pay4
      (View.ld x0 (Rect.unit (s := S1024x1004) ![0, 0] S1024x4.size inb_S1024x1004_S1024x4_0_0))
      (View.ld x1 (Rect.unit (s := S1024x5) ![0, 0] S1024x1.size inb_S1024x5_S1024x1_0_0))
      (View.ld x1 (Rect.unit (s := S1024x5) ![0, 1] S1024x1.size inb_S1024x5_S1024x1_0_1))
      (View.ld x1 (Rect.unit (s := S1024x5) ![0, 2] S1024x1.size inb_S1024x5_S1024x1_0_2))
      (View.ld x1 (Rect.unit (s := S1024x5) ![0, 3] S1024x1.size inb_S1024x5_S1024x1_0_3)))
    (View.ld x0 (Rect.unit (s := S1024x1004) ![0, 4] S1024x1000.size inb_S1024x1004_S1024x1000_0_4))
    (k0_pay5 (View.ld x1 (Rect.unit (s := S1024x5) ![0, 4] S1024x1.size inb_S1024x5_S1024x1_0_4)))
    (0#32) (999#32) xs

/-- A middle block: the scratch ends at the previous total plus the block's sum. -/
theorem sout_B (c : Dev nD) (i : grid0.Coords) (arg2 : Memref sig .tc .vmem S1024x1004 .f32) (harg2 : arg2.IsWhole) (arg3 : Memref sig .tc .vmem S1024x5 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : ¬cond0_1 i)
    (x0 : Vec F S1024x1004 .f32) (x1 : Vec F S1024x5 .f32) (xs0 : Vec F S1x1 .f32) :
    sout0_B_0 c i arg2 harg2 arg3 harg3 arg4 harg4 arg5 harg5 hc0 hc1 x0 x1 xs0 = blockAcc x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero hz2]
  simp only [View.readAt_eq_ld, harg2.read_unread, harg3.read_unread, harg5.read_unread, View.ld_unit_zero (S := S1x1) hz2]
  rfl

/-- A first block: the scratch is zeroed, read back, and ends at zero plus the block's sum. -/
theorem sout_A (c : Dev nD) (i : grid0.Coords) (arg2 : Memref sig .tc .vmem S1024x1004 .f32) (harg2 : arg2.IsWhole) (arg3 : Memref sig .tc .vmem S1024x5 .f32) (harg3 : arg3.IsWhole) (arg4 : Memref sig .tc .vmem S1x1x1 .f32) (harg4 : arg4.IsWhole) (arg5 : Memref sig .tc .vmem S1x1 .f32) (harg5 : arg5.IsWhole) (hc0 : cond0_0 i) (hc1 : ¬cond0_1 i)
    (x0 : Vec F S1024x1004 .f32) (x1 : Vec F S1024x5 .f32) :
    sout0_A_0 c i arg2 harg2 arg3 harg3 arg4 harg4 arg5 harg5 hc0 hc1 x0 x1 = blockAcc x0 x1 (k0_pay3 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread]
  rfl

/-- A last block: the scratch ends as at a middle block, -/
theorem sout_C (c : Dev nD) (i : grid0.Coords) (arg2 : Memref sig .tc .vmem S1024x1004 .f32) (harg2 : arg2.IsWhole) (arg3 : Memref sig .tc .vmem S1024x5 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S1024x1004 .f32) (x1 : Vec F S1024x5 .f32) (xs0 : Vec F S1x1 .f32) :
    sout0_C_0 c i arg2 harg2 arg3 harg3 arg4 harg4 arg5 harg5 hc0 hc1 x0 x1 xs0 = blockAcc x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz2]
  simp only [View.readAt_eq_ld, harg2.read_unread, harg3.read_unread, harg5.read_unread, View.ld_unit_zero (S := S1x1) hz2]
  rfl

/-- and the output word is that total, re-shaped. -/
theorem out_C (c : Dev nD) (i : grid0.Coords) (arg2 : Memref sig .tc .vmem S1024x1004 .f32) (harg2 : arg2.IsWhole) (arg3 : Memref sig .tc .vmem S1024x5 .f32) (harg3 : arg3.IsWhole) (arg4 : Memref sig .tc .vmem S1x1x1 .f32) (harg4 : arg4.IsWhole) (arg5 : Memref sig .tc .vmem S1x1 .f32) (harg5 : arg5.IsWhole) (hc0 : ¬cond0_0 i) (hc1 : cond0_1 i)
    (x0 : Vec F S1024x1004 .f32) (x1 : Vec F S1024x5 .f32) (xs0 : Vec F S1x1 .f32) :
    out0_C_2 c i arg2 harg2 arg3 harg3 arg4 harg4 arg5 harg5 hc0 hc1 x0 x1 xs0 = k0_pay2 (blockAcc x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero hz3, View.readCov_unit_zero (S := S1x1) _ hz2]
  simp only [View.readAt_eq_ld, harg2.read_unread, harg3.read_unread, harg5.read_unread, View.ld_unit_zero (S := S1x1) hz2]
  rfl

end Cert.KernelIdeal.KVal
end
-- ==== Proof.KAcc.lean ====
/-
  The running total across the grid. The grid is 2 halves of 128 blocks; within a half the scratch word after block
  `n` is `blockAcc` of that block's inputs and of the word after block `n - 1`, restarting from the stored zero at
  the half's first block. This module states that recursion (`chain`) and proves, by induction on the grid point,
  that it is what the generated frame's point-by-point contents hold; the output word written back at a half's last
  block is the total there.
-/
import proofs.«162990_j91070486544852_2_alg».proof.Proof.KPieces

set_option maxRecDepth 16384

noncomputable section

namespace Cert.KernelIdeal.KVal

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- The scratch word after grid point `n`: at a half's first block the block's sum added to the stored zero,
    otherwise added to the word after the point before. -/
def chain (c : Dev nD) : (n : ℕ) → n < cfg0.N → Vec F S1x1 .f32
  | 0, h => blockAcc (iblk m c 0 ⟨0, h⟩) (iblk m c 1 ⟨0, h⟩) (k0_pay3 (F := F))
  | n + 1, h =>
    if (n + 1) % 128 = 0 then blockAcc (iblk m c 0 ⟨n + 1, h⟩) (iblk m c 1 ⟨n + 1, h⟩) (k0_pay3 (F := F))
    else blockAcc (iblk m c 0 ⟨n + 1, h⟩) (iblk m c 1 ⟨n + 1, h⟩) (chain c n (Nat.lt_of_succ_lt h))

theorem chain_reset (c : Dev nD) (n : ℕ) (h : n + 1 < cfg0.N) (h0 : (n + 1) % 128 = 0) :
    chain m c (n + 1) h = blockAcc (iblk m c 0 ⟨n + 1, h⟩) (iblk m c 1 ⟨n + 1, h⟩) (k0_pay3 (F := F)) := by
  show (if (n + 1) % 128 = 0 then _ else _) = _
  rw [if_pos h0]

theorem chain_step (c : Dev nD) (n : ℕ) (h : n + 1 < cfg0.N) (h0 : ¬(n + 1) % 128 = 0) :
    chain m c (n + 1) h = blockAcc (iblk m c 0 ⟨n + 1, h⟩) (iblk m c 1 ⟨n + 1, h⟩) (chain m c n (Nat.lt_of_succ_lt h)) := by
  show (if (n + 1) % 128 = 0 then _ else _) = _
  rw [if_neg h0]

/-- The frame's scratch contents after each point are the recursion's. -/
theorem outsAt_snd (c : Dev nD) : ∀ (n : ℕ) (h : n < cfg0.N), (outsAt0 m c n h).2 = chain m c n h
  | 0, h => by
    rw [outsAt0_A m c ⟨0, h⟩ rfl (fun h1 : (0 : ℕ) % 128 = 127 => absurd h1 (by decide))]
    dsimp only
    rw [sout_A]
    rfl
  | n + 1, h => by
    have hN : cfg0.N = 256 := N_0
    by_cases h0 : (n + 1) % 128 = 0
    · have h1 : ¬(n + 1) % 128 = 127 := by omega
      rw [outsAt0_A m c ⟨n + 1, h⟩ h0 h1, chain_reset m c n h h0]
      dsimp only
      rw [sout_A]
    · by_cases h1 : (n + 1) % 128 = 127
      · rw [outsAt0_C m c ⟨n + 1, h⟩ h0 h1, chain_step m c n h h0]
        dsimp only
        rw [sout_C]
        show blockAcc _ _ (outsAt0 m c n _).2 = blockAcc _ _ (chain m c n _)
        rw [outsAt_snd c n]
      · rw [outsAt0_B m c ⟨n + 1, h⟩ h0 h1, chain_step m c n h h0]
        dsimp only
        rw [sout_B]
        show blockAcc _ _ (outsAt0 m c n _).2 = blockAcc _ _ (chain m c n _)
        rw [outsAt_snd c n]

/-- At a half's last block the output word holds the total there. -/
theorem outsAt_fst (c : Dev nD) (t : Fin cfg0.N) (h1 : t.val % 128 = 127) :
    (outsAt0 m c t.val t.isLt).1 = k0_pay2 (chain m c t.val t.isLt) := by
  obtain ⟨n, h⟩ := t
  have hN : cfg0.N = 256 := N_0
  cases n with
  | zero => exact absurd (show (0 : ℕ) % 128 = 127 from h1) (by decide)
  | succ n =>
    have h0 : ¬(n + 1) % 128 = 0 := by dsimp only at h1; omega
    rw [outsAt0_C m c ⟨n + 1, h⟩ h0 h1, chain_step m c n h h0]
    dsimp only
    rw [out_C]
    show k0_pay2 (blockAcc _ _ (outsAt0 m c n _).2) = k0_pay2 (blockAcc _ _ (chain m c n _))
    rw [outsAt_snd m c n]

end Cert.KernelIdeal.KVal
end
-- ==== Proof.KFinal.lean ====
/-
  From the grid to the result. Output window 2 has one word per core half; the pipeline writes a half's word back
  once, after the half's last block, so the output array ends holding, at `(q, 0, 0)`, the running total after block
  `128 q + 127`. The host then adds the two words to zero and divides by the number of rows. This module reads the
  generated frame run accordingly: the result buffer ends at that quotient, the two argument arrays unchanged.
-/
import proofs.«162990_j91070486544852_2_alg».proof.Proof.KAcc
import Idealize.ShloMosaic.Lib.StableHlo.Run
import Idealize.ShloMosaic.Lib.ValueIdx

set_option maxRecDepth 16384

noncomputable section

namespace Cert.KernelIdeal.KVal

open Idealize.ShloMosaic Idealize.ShloMosaic.TcCoe Idealize.ShloMosaic.Tactic
open Idealize.SL Idealize.SL.Sem
open Idealize.ShloMosaic.Pipeline (Dat)
open Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The running total depends on the point's number only. -/
theorem chain_congr (c : Dev nD) {n n' : ℕ} (e : n = n') (h : n < cfg0.N) (h' : n' < cfg0.N) :
    chain m c n h = chain m c n' h' := by
  subst e; rfl

/-- The last block of half `q` is a grid point. -/
theorem last_lt (i : S2x1x1.Idx) : 128 * (i 0).val + 127 < cfg0.N := by
  have h2 : (i 0).val < 2 := (i 0).isLt
  rw [show cfg0.N = 256 from N_0]
  omega

/-- What the output array ends holding: at half `q`'s word, the running total after the half's last block. -/
def outArr (c : Dev nD) : S2x1x1.Idx → Elt F .f32 := fun i =>
  chain m c (128 * (i 0).val + 127) (last_lt i) (ValueIdx.ix2 (0 : Fin 1) (0 : Fin 1))

/-- The one-word total re-shaped to the output block reads the word, at the block's one index. -/
theorem pay2_apply (v : Vec F S1x1 .f32) (y : S1x1x1.Idx) : k0_pay2 v y = v (ValueIdx.ix2 (0 : Fin 1) (0 : Fin 1)) := by
  unfold k0_pay2
  refine shapeCast_apply v shapeCasts_S1x1_S1x1x1 y _ ?_
  have h0 : (y 0).val < 1 := (y 0).isLt
  have h1 : (y 1).val < 1 := (y 1).isLt
  have h2 : (y 2).val < 1 := (y 2).isLt
  rw [Shape.rowMajor_val_two, Shape.rowMajor_val_three]
  show 0 * 1 + 0 = ((y 0).val * 1 + (y 1).val) * 1 + (y 2).val
  omega

/-- The output window's printed index map, decided over the grid: point `t` is in half `t / 128`. -/
theorem out_idx : ∀ t : Fin cfg0.N, win0_2.index t (0 : Fin 3) = t.val / 128 ∧ win0_2.index t (1 : Fin 3) = 0
    ∧ win0_2.index t (2 : Fin 3) = 0 :=
  (by decide +kernel : ∀ t : Fin grid0.N, win0_2.index t (0 : Fin 3) = t.val / 128 ∧ win0_2.index t (1 : Fin 3) = 0
    ∧ win0_2.index t (2 : Fin 3) = 0)

/-- What a write-back writes is the array's block there. -/
theorem flushed_eq (c : Dev nD) (t : Fin cfg0.N) (hf : (cfg0.win 2).flush t = true) :
    (dats m 0 c).flushed 2 t = ((cfg0.win 2).blk t).view.read (Elt F) (outArr m c) := by
  have h1 : t.val % 128 = 127 := (flush0_2 t).mp hf
  show (cfg0.win 2).cut (grid0.coords t) ((dats m 0 c).after 2 t) = _
  rw [after0_2, outsAt_fst m c t h1]
  funext y
  show k0_pay2 (chain m c t.val t.isLt) y = outArr m c (((cfg0.win 2).blk t).view.emb y)
  rw [pay2_apply]
  unfold outArr
  refine congrFun (chain_congr m c ?_ _ _) _
  have hy : (y 0).val < 1 := (y 0).isLt
  show t.val = 128 * (win0_2.index t (0 : Fin 3) * 1 + 1 * (y 0).val) + 127
  rw [(out_idx t).1]
  omega

/-- Every word of the output array is written back by its half's last block. -/
theorem cover (i : S2x1x1.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 1 := (i 2).isLt
  refine ⟨⟨128 * (i 0).val + 127, last_lt i⟩, (flush0_2 _).mpr (by show (128 * (i 0).val + 127) % 128 = 127; omega), ?_⟩
  show i ∈ ((View.whole main_v0).slice (win0_2.rect ⟨128 * (i 0).val + 127, last_lt i⟩)).set
  rw [View.set_slice_whole, Rect.mem_set_unit]
  obtain ⟨e0, e1, e2⟩ := out_idx ⟨128 * (i 0).val + 127, last_lt i⟩
  intro a
  match a with
  | ⟨0, _⟩ =>
    show win0_2.index ⟨128 * (i 0).val + 127, last_lt i⟩ (0 : Fin 3) * 1 ≤ (i 0).val ∧ (i 0).val < win0_2.index ⟨128 * (i 0).val + 127, last_lt i⟩ (0 : Fin 3) * 1 + 1
    rw [e0]; show (128 * (i 0).val + 127) / 128 * 1 ≤ (i 0).val ∧ (i 0).val < (128 * (i 0).val + 127) / 128 * 1 + 1; omega
  | ⟨1, _⟩ =>
    show win0_2.index ⟨128 * (i 0).val + 127, last_lt i⟩ (1 : Fin 3) * 1 ≤ (i 1).val ∧ (i 1).val < win0_2.index ⟨128 * (i 0).val + 127, last_lt i⟩ (1 : Fin 3) * 1 + 1
    rw [e1]; omega
  | ⟨2, _⟩ =>
    show win0_2.index ⟨128 * (i 0).val + 127, last_lt i⟩ (2 : Fin 3) * 1 ≤ (i 2).val ∧ (i 2).val < win0_2.index ⟨128 * (i 0).val + 127, last_lt i⟩ (2 : Fin 3) * 1 + 1
    rw [e2]; omega

/-- So the output array ends at `outArr`. -/
theorem final (c : Dev nD) : (dats m 0 c).arrAt 2 cfg0.N = outArr m c :=
  (dats m 0 c).arrAt_eq_of_cover 2 (outArr m c) (flushed_eq m c) (cover)

/-- The result: the two words added to zero, divided by the number of rows. -/
def kres (c : Dev nD) : Buf (Elt F) ((c.tc : Thread nD τ).loc main_v2) :=
  Host.divf (Host.reduceAdd (outArr m c) (constant S_ .f32 0x00000000#32) reducesTo_S2x1x1_S_d0_1_2 h_S_)
    (constant S_ .f32 0x48800000#32)

end Cert.KernelIdeal.KVal
end
-- ==== Proof.KRun.lean ====
/-
  The kernel program's run, read: every weakly fair execution ends with the result buffer at the quotient of the
  two half totals' sum by the number of rows, and with both argument arrays as they were.
-/
import proofs.«162990_j91070486544852_2_alg».proof.Proof.KFinal

set_option maxRecDepth 16384

noncomputable section

namespace Cert.KernelIdeal.KVal

open Idealize.ShloMosaic Idealize.ShloMosaic.TcCoe Idealize.ShloMosaic.Tactic
open Idealize.SL Idealize.SL.Sem
open Idealize.ShloMosaic.Pipeline (Dat)
open Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- The result buffer is none of the pipeline's arrays. -/
theorem res_mem : main_v2 ∈ Pipeline.restRefs sig (cfgs 0).spec := by decide

/-- The host lines after the region, applied to the output array the region leaves, give the result. -/
theorem tail_eq (c : Dev nD) :
    Pipeline.afterTail₀ cfgs (dats m) 0 (V0 m) [hostOps1] c main_v2 = kres m c := by
  unfold Pipeline.afterTail₀
  show StableHlo.after hostOps1 _ (Proc.devRef .tc main_v2) = _
  after_results
  unfold kres
  rw [Pipeline.withArrays_arr spec0 launch0.win.arr_inj c _ _ 2, final m c]

/-- The run, read. -/
theorem run : θ_run defs (onTc (τ := τ) (main (F := F))) ⟨m, fun _ => 0, ρ⟩ fun r => ∀ c : Dev nD,
      r.2.mem ((c.tc : Thread nD τ).loc main_v2) = kres m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 res_mem).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KVal
end
-- ==== Proof.Spec.lean ====
/-
  The mathematics both programs compute, stated once over the extended reals, row by row.

  A row of `output` is four predicted box numbers `p` and a thousand logits `z`; a row of `target` is a true box
  `t = (xmin, ymin, xmax, ymax)` and a class `k`. The row's loss is the mean squared error between `p` and the
  centre/size form of the true box, plus the cross entropy `-log softmax(z)_k`; the result is the mean of the row
  losses over all 262144 rows.

  The kernel and the reference spell the row loss differently (a product with 1/4 against a quotient by 4; the
  difference `log Σ - (z_k - M)` against the negated `(z_k - M) - log Σ`; sums with and without a leading zero),
  so both spellings are defined here, `rowK` and `rowR`; that they agree on finite logits, and that the kernel's
  blockwise accumulation is the sum over all rows, is proved in the algebra module.
-/
import Idealize.ShloMosaic.PureOps.Ideal
import Idealize.ShloMosaic.PureOps.Ideal.Laws
import Idealize.ShloMosaic.Lib.ValueIdx

noncomputable section

namespace Cert.LocLoss

open Idealize.ShloMosaic

/-- The float literals the two programs share, each the exact value its word denotes. -/
abbrev cHalf : EReal := Ideal.ofBits .f32 0x3F000000#32
abbrev cQuarter : EReal := Ideal.ofBits .f32 0x3E800000#32
abbrev cFour : EReal := Ideal.ofBits .f32 0x40800000#32
abbrev cOne : EReal := Ideal.ofBits .f32 0x3F800000#32
abbrev cZero : EReal := Ideal.ofBits .f32 0x00000000#32
abbrev cNegInf : EReal := Ideal.ofBits .f32 0xFF800000#32
abbrev cCount : EReal := Ideal.ofBits .f32 0x48800000#32

/-- The largest of a row's thousand logits, as a fold of `max` from `-∞`. -/
def rowMax (z : Fin 1000 → EReal) : EReal := (Finset.univ : Finset (Fin 1000)).fold max cNegInf z

/-- The true box in centre/size form: `((xmin+xmax)/2, (ymin+ymax)/2, xmax-xmin, ymax-ymin)`. -/
def trueBox (t : Fin 4 → EReal) : Fin 4 → EReal :=
  ![(t 0 + t 2) * cHalf, (t 1 + t 3) * cHalf, t 2 - t 0, t 3 - t 1]

/-- The box term as the kernel spells it: the four squared differences added left to right, times 1/4. -/
def locK (p t : Fin 4 → EReal) : EReal :=
  ((((p 0 - trueBox t 0) * (p 0 - trueBox t 0) + (p 1 - trueBox t 1) * (p 1 - trueBox t 1))
      + (p 2 - trueBox t 2) * (p 2 - trueBox t 2)) + (p 3 - trueBox t 3) * (p 3 - trueBox t 3)) * cQuarter

/-- The box term as the reference spells it: zero plus the sum of the four squared differences, divided by 4. -/
def locR (p t : Fin 4 → EReal) : EReal :=
  Ideal.div (cZero + ∑ a : Fin 4, (p a - trueBox t a) * (p a - trueBox t a)) cFour

/-- The cross entropy as the kernel spells it: `1 · (log Σ_c exp(z_c - M) - (z_k - M))`. -/
def ceK (z : Fin 1000 → EReal) (k : Fin 1000) : EReal :=
  cOne * (Ideal.log (∑ c : Fin 1000, Ideal.exp (z c - rowMax z)) - (z k - rowMax z))

/-- The cross entropy as the reference spells it: `1 · -((z_k - M') - log (0 + Σ_c exp(z_c - M')))` with
    `M' = max(-∞, M)`. -/
def ceR (z : Fin 1000 → EReal) (k : Fin 1000) : EReal :=
  cOne * -((z k - max cNegInf (rowMax z))
    - Ideal.log (cZero + ∑ c : Fin 1000, Ideal.exp (z c - max cNegInf (rowMax z))))

/-- A row's loss, in the kernel's spelling and in the reference's. -/
def rowK (p t : Fin 4 → EReal) (z : Fin 1000 → EReal) (k : Fin 1000) : EReal := locK p t + ceK z k
def rowR (p t : Fin 4 → EReal) (z : Fin 1000 → EReal) (k : Fin 1000) : EReal := locR p t + ceR z k

end Cert.LocLoss

end
-- ==== Proof.Algebra.lean ====
/-
  Extended-real algebra behind the row loss. The shared float literals are identified with the numbers they
  denote; the two spellings of the row loss (product with 1/4 against quotient by 4, and log Σ - a against
  -(a - log Σ)) are shown equal when the logits are finite, the only place finiteness matters being
  -(a - L) = L - a, which fails on the extended reals at ⊤ - ⊤. The blockwise running total is shown to be
  the sum of its 128 blocks, and the sum over cores, blocks and rows to be the sum over all 262144 rows.
-/
import proofs.«162990_j91070486544852_2_alg».proof.Proof.Spec

noncomputable section

namespace Cert.LocLoss

open Idealize.ShloMosaic

/-! ### The literals -/

theorem cZero_eq : cZero = 0 := by
  simp [Ideal.ofBits, Ideal.ieee]

theorem cOne_eq : cOne = 1 := by
  simp [Ideal.ofBits, Ideal.ieee, -EReal.coe_mul]; norm_num

theorem cNegInf_eq : cNegInf = ⊥ := by
  simp [Ideal.ofBits, Ideal.ieee]

theorem cFour_eq : cFour = ((4 : ℝ) : EReal) := by
  simp [Ideal.ofBits, Ideal.ieee, -EReal.coe_mul]; norm_num

theorem cQuarter_eq : cQuarter = ((1 / 4 : ℝ) : EReal) := by
  simp [Ideal.ofBits, Ideal.ieee, -EReal.coe_mul]; norm_num

theorem cHalf_eq : cHalf = ((1 / 2 : ℝ) : EReal) := by
  simp [Ideal.ofBits, Ideal.ieee, -EReal.coe_mul]; norm_num

theorem cCount_eq : cCount = ((262144 : ℝ) : EReal) := by
  simp [Ideal.ofBits, Ideal.ieee, -EReal.coe_mul]; norm_num

/-! ### The one-hot sum -/

/-- the one-hot masked sum picks its entry -/
theorem sum_onehot (a : Fin 1000 → EReal) (k : Fin 1000) :
    ∑ c : Fin 1000, (if c = k then a c else 0) = a k := by
  rw [Finset.sum_ite_eq' Finset.univ k a]
  simp

/-! ### The running total -/

/-- The running total a core keeps over its 128 blocks: reset to zero-plus-block at every 128th block, else
    previous plus block. -/
def acc (B : ℕ → EReal) : ℕ → EReal
  | 0 => cZero + B 0
  | n + 1 => if (n + 1) % 128 = 0 then cZero + B (n + 1) else acc B n + B (n + 1)

theorem acc_zero (B : ℕ → EReal) : acc B 0 = cZero + B 0 := rfl

theorem acc_reset (B : ℕ → EReal) (n : ℕ) (h : (n + 1) % 128 = 0) : acc B (n + 1) = cZero + B (n + 1) := by
  rw [acc, if_pos h]

theorem acc_step (B : ℕ → EReal) (n : ℕ) (h : ¬ (n + 1) % 128 = 0) :
    acc B (n + 1) = acc B n + B (n + 1) := by
  rw [acc, if_neg h]

/-- Within a group of 128 blocks the running total is the sum of the blocks seen so far. -/
theorem acc_partial (B : ℕ → EReal) (q : ℕ) :
    ∀ i : ℕ, i < 128 → acc B (128 * q + i) = ∑ j ∈ Finset.range (i + 1), B (128 * q + j) := by
  intro i
  induction i with
  | zero =>
    intro _
    rw [Finset.sum_range_one, Nat.add_zero]
    cases q with
    | zero => rw [Nat.mul_zero, acc_zero, cZero_eq, zero_add]
    | succ q =>
      have h : 128 * (q + 1) = (128 * q + 127) + 1 := by ring
      rw [h, acc_reset B _ (by omega), cZero_eq, zero_add]
  | succ i ih =>
    intro hi
    have h : 128 * q + (i + 1) = (128 * q + i) + 1 := by ring
    rw [Finset.sum_range_succ, ← ih (by omega), h, acc_step B _ (by omega)]

theorem acc_last (B : ℕ → EReal) (q : ℕ) : acc B (128 * q + 127) = ∑ j : Fin 128, B (128 * q + j.val) := by
  rw [acc_partial B q 127 (by norm_num), Fin.sum_univ_eq_sum_range (fun j => B (128 * q + j)) 128]

/-! ### The box term -/

theorem locR_eq_locK (p t : Fin 4 → EReal) : locR p t = locK p t := by
  unfold locR locK
  rw [cFour_eq, Ideal.div_coe (by norm_num : (4 : ℝ) ≠ 0), cQuarter_eq, cZero_eq, zero_add, Fin.sum_univ_four]

/-! ### Block by block is row by row -/

/-- Summing m groups of n consecutive terms is summing the first n * m terms. -/
theorem sum_range_groups (g : ℕ → EReal) (n : ℕ) :
    ∀ m : ℕ, ∑ i ∈ Finset.range m, ∑ j ∈ Finset.range n, g (n * i + j) = ∑ b ∈ Finset.range (n * m), g b
  | 0 => by simp
  | m + 1 => by
    rw [Finset.sum_range_succ, sum_range_groups g n m, Nat.mul_succ, Finset.sum_range_add]

/-- Summing block by block (2 cores × 128 blocks × 1024 rows) is summing over all 262144 rows. -/
theorem sum_blocks (f : ℕ → EReal) :
    ∑ q : Fin 2, ∑ j : Fin 128, ∑ r : Fin 1024, f (1024 * (128 * q.val + j.val) + r.val)
      = ∑ b : Fin 262144, f b.val := by
  have h1 : ∀ k : ℕ, ∑ r : Fin 1024, f (1024 * k + r.val) = ∑ r ∈ Finset.range 1024, f (1024 * k + r) :=
    fun k => Fin.sum_univ_eq_sum_range (fun r => f (1024 * k + r)) 1024
  have h2 : ∀ q : ℕ, ∑ j : Fin 128, ∑ r : Fin 1024, f (1024 * (128 * q + j.val) + r.val)
      = ∑ j ∈ Finset.range 128, ∑ r ∈ Finset.range 1024, f (1024 * (128 * q + j) + r) := by
    intro q
    rw [← Fin.sum_univ_eq_sum_range (fun j => ∑ r ∈ Finset.range 1024, f (1024 * (128 * q + j) + r)) 128]
    exact Finset.sum_congr rfl (fun j _ => h1 _)
  have h3 : ∑ q : Fin 2, ∑ j : Fin 128, ∑ r : Fin 1024, f (1024 * (128 * q.val + j.val) + r.val)
      = ∑ q ∈ Finset.range 2, ∑ j ∈ Finset.range 128, ∑ r ∈ Finset.range 1024,
          f (1024 * (128 * q + j) + r) := by
    rw [← Fin.sum_univ_eq_sum_range
      (fun q => ∑ j ∈ Finset.range 128, ∑ r ∈ Finset.range 1024, f (1024 * (128 * q + j) + r)) 2]
    exact Finset.sum_congr rfl (fun q _ => h2 _)
  rw [h3, sum_range_groups (fun k => ∑ r ∈ Finset.range 1024, f (1024 * k + r)) 128 2,
    sum_range_groups f 1024 (128 * 2), Fin.sum_univ_eq_sum_range f 262144]

/-! ### The row maximum is finite -/

/-- the maximum of finitely many finite numbers is finite -/
theorem rowMax_ne_top (z : Fin 1000 → EReal) (hz : ∀ c, z c ≠ ⊤) : rowMax z ≠ ⊤ := by
  apply ne_of_lt
  unfold rowMax
  rw [Finset.fold_max_lt]
  refine ⟨?_, fun c _ => lt_top_iff_ne_top.mpr (hz c)⟩
  rw [cNegInf_eq]
  exact bot_lt_top

theorem rowMax_ne_bot (z : Fin 1000 → EReal) (hz : ∀ c, z c ≠ ⊥) : rowMax z ≠ ⊥ := by
  have h : z 0 ≤ rowMax z := by
    unfold rowMax
    rw [Finset.le_fold_max]
    exact Or.inr ⟨0, Finset.mem_univ _, le_refl _⟩
  intro hb
  rw [hb, le_bot_iff] at h
  exact hz 0 h

/-! ### The cross entropy -/

/-- The difference of two finite extended reals is finite. -/
theorem sub_finite {x y : EReal} (hx1 : x ≠ ⊤) (hx2 : x ≠ ⊥) (hy1 : y ≠ ⊤) (hy2 : y ≠ ⊥) :
    x - y ≠ ⊥ ∧ x - y ≠ ⊤ := by
  lift x to ℝ using ⟨hx1, hx2⟩
  lift y to ℝ using ⟨hy1, hy2⟩
  rw [← EReal.coe_sub]
  exact ⟨EReal.coe_ne_bot _, EReal.coe_ne_top _⟩

/-- For finite a, -(a - L) = L - a whatever L is. -/
theorem neg_sub_finite {a : EReal} (ha1 : a ≠ ⊥) (ha2 : a ≠ ⊤) (L : EReal) : -(a - L) = L - a := by
  rw [EReal.neg_sub (Or.inl ha1) (Or.inl ha2), add_comm, sub_eq_add_neg]

theorem ceR_eq_ceK (z : Fin 1000 → EReal) (k : Fin 1000) (hz : ∀ c, z c ≠ ⊤ ∧ z c ≠ ⊥) :
    ceR z k = ceK z k := by
  have hM1 := rowMax_ne_top z (fun c => (hz c).1)
  have hM2 := rowMax_ne_bot z (fun c => (hz c).2)
  have ha := sub_finite (hz k).1 (hz k).2 hM1 hM2
  unfold ceR ceK
  rw [cNegInf_eq, max_eq_right bot_le, cZero_eq, zero_add, neg_sub_finite ha.1 ha.2]

theorem rowR_eq_rowK (p t : Fin 4 → EReal) (z : Fin 1000 → EReal) (k : Fin 1000)
    (hz : ∀ c, z c ≠ ⊤ ∧ z c ≠ ⊥) : rowR p t z k = rowK p t z k := by
  unfold rowR rowK
  rw [locR_eq_locK, ceR_eq_ceK z k hz]

end Cert.LocLoss

end
-- ==== Proof.Rows.lean ====
/-
  The rows of the two argument arrays as the row loss reads them: a row's four predicted box numbers, its true box,
  its thousand logits and its class, and the mean of the row losses over the 262144 rows in the kernel's spelling
  and in the reference's. On finite logits the two means are one number.
-/
import proofs.«162990_j91070486544852_2_alg».proof.Proof.Algebra

noncomputable section

namespace Cert.LocLoss

open Idealize.ShloMosaic Idealize.ShloMosaic.ValueIdx

/-- The two argument arrays' shapes. -/
abbrev SOut : Shape := ⟨2, ![262144, 1004]⟩
abbrev STgt : Shape := ⟨2, ![262144, 5]⟩

/-- Row `b`'s predicted box: columns 0..3 of `output`. -/
def boxP (x0 : SOut.Idx → EReal) (b : Fin 262144) : Fin 4 → EReal :=
  fun a => x0 (ix2 b (⟨a.val, by have := a.isLt; omega⟩ : Fin 1004))

/-- Row `b`'s true box: columns 0..3 of `target`. -/
def boxT (x1 : STgt.Idx → EReal) (b : Fin 262144) : Fin 4 → EReal :=
  fun a => x1 (ix2 b (⟨a.val, by have := a.isLt; omega⟩ : Fin 5))

/-- Row `b`'s logits: columns 4..1003 of `output`. -/
def logits (x0 : SOut.Idx → EReal) (b : Fin 262144) : Fin 1000 → EReal :=
  fun c => x0 (ix2 b (⟨4 + c.val, by have := c.isLt; omega⟩ : Fin 1004))

/-- Row `b`'s class as the 32-bit integer both programs convert column 4 of `target` to. -/
def classWord (x1 : STgt.Idx → EReal) (b : Fin 262144) : BitVec 32 :=
  FloatOps.fptosi (F := Ideal) (φ := .f32) 32 (x1 (ix2 b (4 : Fin 5)))

/-- The same class as a column number (the word's value reduced into range, so that it is total). -/
def classIx (x1 : STgt.Idx → EReal) (b : Fin 262144) : Fin 1000 :=
  ⟨(classWord x1 b).toNat % 1000, Nat.mod_lt _ (by norm_num)⟩

/-- Every class is a valid column: `0 ≤ class < 1000` as signed integers. -/
def InRange (x1 : STgt.Idx → EReal) : Prop :=
  ∀ b : Fin 262144, 0 ≤ (classWord x1 b).toInt ∧ (classWord x1 b).toInt < 1000

/-- Every entry of `output` is a real number. -/
def Finite (x0 : SOut.Idx → EReal) : Prop := ∀ i : SOut.Idx, x0 i ≠ ⊤ ∧ x0 i ≠ ⊥

/-- A class in range is the word of its column number. -/
theorem classWord_eq (x1 : STgt.Idx → EReal) (h : InRange x1) (b : Fin 262144) :
    classWord x1 b = BitVec.ofNat 32 (classIx x1 b).val := by
  have h0 := (h b).1
  have h1 := (h b).2
  have hlt : (classWord x1 b).toNat < 2 ^ 32 := (classWord x1 b).isLt
  rw [BitVec.toInt_eq_toNat_cond] at h0 h1
  have hn : (classWord x1 b).toNat < 1000 := by
    split at h1 <;> omega
  show classWord x1 b = BitVec.ofNat 32 ((classWord x1 b).toNat % 1000)
  rw [Nat.mod_eq_of_lt hn, BitVec.ofNat_toNat, BitVec.setWidth_eq]

/-- The mean row loss, kernel's spelling. -/
def meanK (x0 : SOut.Idx → EReal) (x1 : STgt.Idx → EReal) : EReal :=
  Ideal.div (cZero + ∑ b : Fin 262144, rowK (boxP x0 b) (boxT x1 b) (logits x0 b) (classIx x1 b)) cCount

/-- The mean row loss, reference's spelling. -/
def meanR (x0 : SOut.Idx → EReal) (x1 : STgt.Idx → EReal) : EReal :=
  Ideal.div (cZero + ∑ b : Fin 262144, rowR (boxP x0 b) (boxT x1 b) (logits x0 b) (classIx x1 b)) cCount

/-- On finite logits the two spellings of the mean agree, row by row. -/
theorem meanR_eq_meanK (x0 : SOut.Idx → EReal) (x1 : STgt.Idx → EReal) (hf : Finite x0) : meanR x0 x1 = meanK x0 x1 := by
  unfold meanR meanK
  refine congrArg (fun s => Ideal.div (cZero + s) cCount) (Finset.sum_congr rfl fun b _ => ?_)
  exact rowR_eq_rowK _ _ _ _ fun c => hf _

end Cert.LocLoss

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KPay.lean ====
/-
  The kernel body's arithmetic, read at an index over the extended reals. The body computes, for each of a block's
  1024 rows, the box term (mean squared error between the four predicted box numbers and the centre/size form of
  the true box) and the cross entropy of the row's thousand logits at the row's class, and adds the sum of the
  1024 row losses to a running total. Each value is read here at one row (and one column), where it is the
  row-loss formula of the specification.
-/
import proofs.«162990_j91070486544852_2_alg».proof.Proof.Gen.KernelIdeal.Skeleton
import proofs.«162990_j91070486544852_2_alg».proof.Proof.Rows
import proofs.«162990_j91070486544852_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Affine

noncomputable section

namespace Cert.LocLoss.KPay

open Idealize.ShloMosaic Idealize.ShloMosaic.ValueIdx Cert.KernelIdeal Cert.KernelIdeal.Gen Cert.LocLoss

variable [Cert.KernelIdeal.Facts]

/-! ### The class conversion and the box term -/

/-- The class column converted to integers, at row `r`: the conversion of that row's entry. -/
theorem pay5_apply (v34 : Vec Ideal S1024x1 .f32) (r : Fin 1024) :
    k0_pay5 (F := Ideal) v34 (ix2 r (0 : Fin 1)) = FloatOps.fptosi (F := Ideal) (φ := .f32) 32 (v34 (ix2 r (0 : Fin 1))) := rfl

/-- The box term at row `r`: the four squared differences against the centre/size form of the true box, added left
    to right, times 1/4. -/
theorem pay4_apply (v3 : Vec Ideal S1024x4 .f32) (v4 v5 v6 v7 : Vec Ideal S1024x1 .f32) (r : Fin 1024) :
    k0_pay4 (F := Ideal) v3 v4 v5 v6 v7 (ix2 r (0 : Fin 1))
      = locK (fun a => v3 (ix2 r a)) ![v4 (ix2 r (0 : Fin 1)), v5 (ix2 r (0 : Fin 1)), v6 (ix2 r (0 : Fin 1)), v7 (ix2 r (0 : Fin 1))] := by
  have s0 := slice2_axis1_apply 0 v3 slices_S1024x4_o0_0_S1024x1 r (0 : Fin 1) (0 : Fin 4) rfl
  have s1 := slice2_axis1_apply 1 v3 slices_S1024x4_o0_1_S1024x1 r (0 : Fin 1) (1 : Fin 4) rfl
  have s2 := slice2_axis1_apply 2 v3 slices_S1024x4_o0_2_S1024x1 r (0 : Fin 1) (2 : Fin 4) rfl
  have s3 := slice2_axis1_apply 3 v3 slices_S1024x4_o0_3_S1024x1 r (0 : Fin 1) (3 : Fin 4) rfl
  unfold k0_pay4
  simp only [mulf_apply, addf_apply, subf_apply, broadcast_apply]
  rw [s0, s1, s2, s3]
  rfl

/-! ### Reductions along one axis, and the layout operations after them, at a coordinate -/

/-- Row `r`'s reduced index with column `k` put back is `(r, k)`. -/
theorem lift_row (h : S1024x1000.Reduces [1] S1024) (r : Fin 1024) (k : Fin (S1024x1000.size 1)) :
    h.lift (ix1 r) k = ix2 r (⟨k.val, k.isLt⟩ : Fin 1000) := by
  funext c; apply Fin.ext
  fin_cases c <;> rfl

/-- The one reduced index with row `k` put back is `(k, 0)`. -/
theorem lift_col (h : S1024x1.Reduces [0] S1) (k : Fin (S1024x1.size 0)) :
    h.lift (ix1 (0 : Fin 1)) k = ix2 (⟨k.val, k.isLt⟩ : Fin 1024) (0 : Fin 1) := by
  funext c; apply Fin.ext
  fin_cases c <;> rfl

/-- A sum along the columns, at row `r`. -/
theorem rowSum_apply (src : FVec Ideal S1024x1000 .f32) (r : Fin 1024) :
    multiReduction .add [1] S1024 src 0x00000000#32 reduces_S1024x1000_S1024 (.inl rfl) rfl (ix1 r)
      = ∑ c : Fin 1000, src (ix2 r c) :=
  (Ideal.multiReduction_add_single src 0x00000000#32 reduces_S1024x1000_S1024 (.inl rfl) rfl (ix1 r)).trans
    (Finset.sum_congr rfl fun c _ => congrArg src (lift_row _ r c))

/-- A sum down the one column, at the one reduced index. -/
theorem colSum_apply (src : FVec Ideal S1024x1 .f32) :
    multiReduction .add [0] S1 src 0x00000000#32 reduces_S1024x1_S1 (.inl rfl) rfl (ix1 (0 : Fin 1))
      = ∑ r : Fin 1024, src (ix2 r (0 : Fin 1)) :=
  (Ideal.multiReduction_add_single src 0x00000000#32 reduces_S1024x1_S1 (.inl rfl) rfl (ix1 (0 : Fin 1))).trans
    (Finset.sum_congr rfl fun k _ => congrArg src (lift_col _ k))

/-- The largest entry of row `r`, as the fold of `max` from -∞ over the row. -/
theorem rowMax_apply (src : FVec Ideal S1024x1000 .f32) (r : Fin 1024) :
    multiReduction .maximumf [1] S1024 src 0xFF800000#32 reduces_S1024x1000_S1024 (.inl rfl) rfl (ix1 r)
      = rowMax (fun c => src (ix2 r c)) := by
  refine (Ideal.multiReduction_maximumf_single src 0xFF800000#32 reduces_S1024x1000_S1024 (.inl rfl) rfl (ix1 r)).trans ?_
  have hf : (src ∘ (reduces_S1024x1000_S1024).lift (ix1 r)) = fun c : Fin 1000 => src (ix2 r c) :=
    funext fun k => congrArg src (lift_row _ r k)
  unfold rowMax
  exact congrArg (fun f => Finset.fold max (Ideal.ofBits .f32 0xFF800000#32) f (Finset.univ : Finset (Fin 1000))) hf

/-- A per-row value put back over the columns (cast to a column, then broadcast along the rows), at `(r, c)`. -/
theorem keep_bcast_apply {α : Type} (x : S1024.Idx → α) (r : Fin 1024) (c : Fin 1000) :
    broadcastTo S1024x1000 (shapeCast S1024x1 x shapeCasts_S1024_S1024x1) broadcasts_S1024x1_S1024x1000 (ix2 r c) = x (ix1 r) :=
  (Cert.LibKeepdims.broadcastTo_a1_ab_apply _ _ r c).trans (Cert.LibKeepdims.shapeCast_a_a1_apply x _ r 0)

/-! ### The class word -/

/-- A column number below 1000, as a 32-bit word, reads back as itself signed. -/
theorem toInt_ofNat_small (k : Fin 1000) : (BitVec.ofNat 32 k.val).toInt = (k.val : Int) := by
  have hk := k.isLt
  rw [BitVec.toInt_eq_toNat_cond, BitVec.toNat_ofNat, Nat.mod_eq_of_lt (by omega)]
  split <;> omega

/-- Clamping a column number below 1000 to [0, 999] leaves it alone. -/
theorem clamp_class (k : Fin 1000) :
    IntOp.minsi 999#32 (IntOp.maxsi 0#32 (BitVec.ofNat 32 k.val)) = BitVec.ofNat 32 k.val := by
  have hk := k.isLt
  have ht := toInt_ofNat_small k
  have z0 : (0#32 : BitVec 32).toInt = 0 := by decide
  have z9 : (999#32 : BitVec 32).toInt = 999 := by decide
  have h1 : ¬ (BitVec.ofNat 32 k.val).slt 0#32 = true := by
    rw [BitVec.slt_iff_toInt_lt, ht, z0]; omega
  have e1 : IntOp.maxsi 0#32 (BitVec.ofNat 32 k.val) = BitVec.ofNat 32 k.val := by
    unfold IntOp.maxsi; rw [if_neg h1]
  have h2 : ¬ (999#32 : BitVec 32).slt (BitVec.ofNat 32 k.val) = true := by
    rw [BitVec.slt_iff_toInt_lt, ht, z9]; omega
  rw [e1]; unfold IntOp.minsi; rw [if_neg h2]

/-- Two column numbers below 1000 are equal as 32-bit words exactly when they are equal. -/
theorem ofNat_eq_iff (c k : Fin 1000) : BitVec.ofNat 32 c.val = BitVec.ofNat 32 k.val ↔ c = k := by
  constructor
  · intro h
    have e := congrArg BitVec.toNat h
    rw [BitVec.toNat_ofNat, BitVec.toNat_ofNat] at e
    have hc := c.isLt
    have hk := k.isLt
    apply Fin.ext; omega
  · rintro rfl; rfl

/-- Selecting on "column `c` is the class `k`" is the `if`. -/
theorem select_onehot (c k : Fin 1000) (a b : EReal) :
    Scalar.select (IntOp.cmpi .eq (BitVec.ofNat 32 c.val) (BitVec.ofNat 32 k.val)) a b = if c = k then a else b := by
  by_cases h : c = k
  · rw [if_pos h, (IntOp.cmpi_eq.2 ((ofNat_eq_iff c k).2 h))]; exact select_one a b
  · rw [if_neg h, eq_zero_of_ne_one (fun e => h ((ofNat_eq_iff c k).1 (IntOp.cmpi_eq.1 e)))]; exact select_zero a b

/-! ### The cross entropy, value by value -/

/-- The logits less their row's maximum. -/
def shifted (v33 : FVec Ideal S1024x1000 .f32) : FVec Ideal S1024x1000 .f32 :=
  subf v33 (broadcastTo S1024x1000
    (shapeCast S1024x1 (multiReduction .maximumf [1] S1024 v33 0xFF800000#32 reduces_S1024x1000_S1024 (.inl rfl) rfl) shapeCasts_S1024_S1024x1)
    broadcasts_S1024x1_S1024x1000)

theorem shifted_apply (v33 : FVec Ideal S1024x1000 .f32) (r : Fin 1024) (c : Fin 1000) :
    shifted v33 (ix2 r c) = v33 (ix2 r c) - rowMax (fun c => v33 (ix2 r c)) := by
  unfold shifted
  refine (subf_apply _ _ _).trans ?_
  exact congrArg (fun m => v33 (ix2 r c) - m) ((keep_bcast_apply _ r c).trans (rowMax_apply v33 r))

/-- The logarithm of each row's sum of exponentials of the shifted logits, as a column. -/
def logSum (v33 : FVec Ideal S1024x1000 .f32) : FVec Ideal S1024x1 .f32 :=
  log (shapeCast S1024x1 (multiReduction .add [1] S1024 (exp (shifted v33)) 0x00000000#32 reduces_S1024x1000_S1024 (.inl rfl) rfl)
    shapeCasts_S1024_S1024x1)

theorem logSum_apply (v33 : FVec Ideal S1024x1000 .f32) (r : Fin 1024) :
    logSum v33 (ix2 r (0 : Fin 1))
      = Ideal.log (∑ c : Fin 1000, Ideal.exp (v33 (ix2 r c) - rowMax (fun c => v33 (ix2 r c)))) := by
  unfold logSum
  refine congrArg Ideal.log ?_
  refine (Cert.LibKeepdims.shapeCast_a_a1_apply _ _ r 0).trans ?_
  refine (rowSum_apply _ r).trans ?_
  exact Finset.sum_congr rfl fun c _ => congrArg Ideal.exp (shifted_apply v33 r c)

/-- The one-hot mask of the clamped class against the column numbers, applied to an array: the array where the
    column is the row's class, zero elsewhere. -/
def masked (a : FVec Ideal S1024x1000 .f32) (v35 : IVec S1024x1 32) : FVec Ideal S1024x1000 .f32 :=
  select (cmpi .eq (iota .tc S1024x1000 32 [1] iota_S1024x1000_d1_w32)
      (broadcastTo S1024x1000 (minsi (broadcast S1024x1 999#32) (maxsi (broadcast S1024x1 0#32) v35)) broadcasts_S1024x1_S1024x1000))
    a (broadcast S1024x1000 (Scalar.ofBits .f32 0x00000000#32))

theorem masked_apply (a : FVec Ideal S1024x1000 .f32) (v35 : IVec S1024x1 32)
    (kk : Fin 1024 → Fin 1000) (hk : ∀ r : Fin 1024, v35 (ix2 r (0 : Fin 1)) = BitVec.ofNat 32 (kk r).val)
    (r : Fin 1024) (c : Fin 1000) :
    masked a v35 (ix2 r c) = if c = kk r then a (ix2 r c) else 0 := by
  have hi : iota .tc S1024x1000 32 [1] iota_S1024x1000_d1_w32 (ix2 r c) = BitVec.ofNat 32 c.val :=
    iota_single_apply .tc S1024x1000 32 1 iota_S1024x1000_d1_w32 (ix2 r c)
  have hb : broadcastTo S1024x1000 (minsi (broadcast S1024x1 999#32) (maxsi (broadcast S1024x1 0#32) v35))
      broadcasts_S1024x1_S1024x1000 (ix2 r c) = BitVec.ofNat 32 (kk r).val := by
    refine (Cert.LibKeepdims.broadcastTo_a1_ab_apply _ _ r c).trans ?_
    show IntOp.minsi 999#32 (IntOp.maxsi 0#32 (v35 (ix2 r (0 : Fin 1)))) = _
    rw [hk r]; exact clamp_class (kk r)
  unfold masked
  refine (select_apply _ _ _ _).trans ?_
  have hm : cmpi .eq (iota .tc S1024x1000 32 [1] iota_S1024x1000_d1_w32)
      (broadcastTo S1024x1000 (minsi (broadcast S1024x1 999#32) (maxsi (broadcast S1024x1 0#32) v35)) broadcasts_S1024x1_S1024x1000)
      (ix2 r c) = IntOp.cmpi .eq (BitVec.ofNat 32 c.val) (BitVec.ofNat 32 (kk r).val) := by
    show IntOp.cmpi .eq (iota .tc S1024x1000 32 [1] iota_S1024x1000_d1_w32 (ix2 r c))
      (broadcastTo S1024x1000 (minsi (broadcast S1024x1 999#32) (maxsi (broadcast S1024x1 0#32) v35)) broadcasts_S1024x1_S1024x1000 (ix2 r c)) = _
    rw [hi, hb]
  rw [hm, select_onehot]
  show (if c = kk r then a (ix2 r c) else cZero) = _
  rw [cZero_eq]

/-- The shifted logit at each row's class, as a column. -/
def picked (v33 : FVec Ideal S1024x1000 .f32) (v35 : IVec S1024x1 32) : FVec Ideal S1024x1 .f32 :=
  shapeCast S1024x1 (multiReduction .add [1] S1024 (masked (shifted v33) v35) 0x00000000#32 reduces_S1024x1000_S1024 (.inl rfl) rfl)
    shapeCasts_S1024_S1024x1

theorem picked_apply (v33 : FVec Ideal S1024x1000 .f32) (v35 : IVec S1024x1 32)
    (kk : Fin 1024 → Fin 1000) (hk : ∀ r : Fin 1024, v35 (ix2 r (0 : Fin 1)) = BitVec.ofNat 32 (kk r).val) (r : Fin 1024) :
    picked v33 v35 (ix2 r (0 : Fin 1)) = v33 (ix2 r (kk r)) - rowMax (fun c => v33 (ix2 r c)) := by
  unfold picked
  refine (Cert.LibKeepdims.shapeCast_a_a1_apply _ _ r 0).trans ?_
  refine (rowSum_apply _ r).trans ?_
  refine Eq.trans (Finset.sum_congr rfl fun c _ => ?_)
    (sum_onehot (fun c => v33 (ix2 r c) - rowMax (fun c => v33 (ix2 r c))) (kk r))
  rw [masked_apply _ v35 kk hk r c, shifted_apply]

/-- A row's loss: its box term plus one times its cross entropy, as a column. -/
def rowLoss (v32 : FVec Ideal S1024x1 .f32) (v33 : FVec Ideal S1024x1000 .f32) (v35 : IVec S1024x1 32) : FVec Ideal S1024x1 .f32 :=
  addf v32 (mulf (broadcast S1024x1 (Scalar.ofBits .f32 0x3F800000#32)) (subf (logSum v33) (picked v33 v35)))

theorem rowLoss_apply (v32 : FVec Ideal S1024x1 .f32) (v33 : FVec Ideal S1024x1000 .f32) (v35 : IVec S1024x1 32)
    (kk : Fin 1024 → Fin 1000) (hk : ∀ r : Fin 1024, v35 (ix2 r (0 : Fin 1)) = BitVec.ofNat 32 (kk r).val) (r : Fin 1024) :
    rowLoss v32 v33 v35 (ix2 r (0 : Fin 1)) = v32 (ix2 r (0 : Fin 1)) + ceK (fun c => v33 (ix2 r c)) (kk r) := by
  unfold rowLoss ceK
  show v32 (ix2 r (0 : Fin 1)) + cOne * (logSum v33 (ix2 r (0 : Fin 1)) - picked v33 v35 (ix2 r (0 : Fin 1))) = _
  rw [logSum_apply, picked_apply v33 v35 kk hk r]

/-- The stored total is the loaded total plus the column sum of the row losses: the payload, with its middle named. -/
theorem pay1_eq (v32 : FVec Ideal S1024x1 .f32) (v33 : Vec Ideal S1024x1000 .f32) (v35 : IVec S1024x1 32) (v61 : Vec Ideal S1x1 .f32) :
    k0_pay1 (F := Ideal) v32 v33 v35 0#32 999#32 v61
      = shapeCast S1x1 (addf v61 (shapeCast S1x1
          (multiReduction .add [0] S1 (rowLoss v32 v33 v35) 0x00000000#32 reduces_S1024x1_S1 (.inl rfl) rfl) shapeCasts_S1_S1x1))
          shapeCasts_S1x1_S1x1 := rfl

/-- The running total after a block: the total before it plus the sum over the block's 1024 rows of the box term plus
    the cross entropy at the row's class. -/
theorem pay1_apply (v32 : FVec Ideal S1024x1 .f32) (v33 : Vec Ideal S1024x1000 .f32) (v35 : IVec S1024x1 32) (v61 : Vec Ideal S1x1 .f32)
    (kk : Fin 1024 → Fin 1000) (hk : ∀ r : Fin 1024, v35 (ix2 r (0 : Fin 1)) = BitVec.ofNat 32 (kk r).val) :
    k0_pay1 (F := Ideal) v32 v33 v35 0#32 999#32 v61 (ix2 (0 : Fin 1) (0 : Fin 1))
      = v61 (ix2 (0 : Fin 1) (0 : Fin 1)) + ∑ r : Fin 1024, (v32 (ix2 r (0 : Fin 1)) + ceK (fun c => v33 (ix2 r c)) (kk r)) := by
  rw [pay1_eq, shapeCast_self]
  refine (addf_apply _ _ _).trans ?_
  refine congrArg (fun s => v61 (ix2 (0 : Fin 1) (0 : Fin 1)) + s) ?_
  refine (Cert.LibKeepdims.shapeCast_a_a1_apply _ _ (0 : Fin 1) (0 : Fin 1)).trans ?_
  refine (colSum_apply _).trans ?_
  exact Finset.sum_congr rfl fun r _ => rowLoss_apply v32 v33 v35 kk hk r

end Cert.LocLoss.KPay

end
-- ==== Proof.KBlock.lean ====
/-
  The kernel's running total, read as numbers. One grid point adds to the total so far the sum, over its block's
  1024 rows, of the row loss (box term plus cross entropy at the row's class); the blocks are consecutive groups of
  1024 rows of the two argument arrays; so the total after point `n` is the recursion `acc` over the block sums
  of row losses: zero plus the block's sum at the first block of each half of the grid, the previous total plus the
  block's sum elsewhere.
-/
import proofs.«162990_j91070486544852_2_alg».proof.Proof.KAcc
import proofs.«162990_j91070486544852_2_alg».proof.Proof.KPay

set_option maxRecDepth 16384

noncomputable section

namespace Cert.KernelIdeal.KVal

open Idealize.ShloMosaic Idealize.ShloMosaic.ValueIdx Idealize.ShloMosaic.TcCoe Idealize.SL.Sem
open Cert.KernelIdeal Cert.KernelIdeal.Gen Cert.LocLoss

/-- Row `b`'s loss (the kernel's spelling) as a function of a natural row number, zero past the last row. -/
def rowOf (X0 : SOut.Idx → EReal) (X1 : STgt.Idx → EReal) (b : ℕ) : EReal :=
  if h : b < 262144 then rowK (boxP X0 ⟨b, h⟩) (boxT X1 ⟨b, h⟩) (logits X0 ⟨b, h⟩) (classIx X1 ⟨b, h⟩) else 0

/-- Block `t`'s sum of its 1024 row losses. -/
def blockSum (X0 : SOut.Idx → EReal) (X1 : STgt.Idx → EReal) (t : ℕ) : EReal := ∑ r : Fin 1024, rowOf X0 X1 (1024 * t + r.val)

/-! ### A sub-rectangle of a block read at coordinates -/

/-- A unit-stride rectangle of a matrix, cut from column `o` over all its rows, places its `(r, j)` at `(r, o + j)`. -/
theorem unit_idx2 {n0 n1 k0 k1 : ℕ} (o : ℕ)
    (inb : ∀ a, (![0, o] : Fin 2 → ℕ) a + (![k0, k1] : Fin 2 → ℕ) a ≤ (⟨2, ![n0, n1]⟩ : Shape).size a)
    (r : Fin k0) (j : Fin k1) (r' : Fin n0) (j' : Fin n1) (hr : r'.val = r.val) (hj : j'.val = o + j.val) :
    (Rect.unit (s := ⟨2, ![n0, n1]⟩) ![0, o] ![k0, k1] inb).idx (ix2 r j) = ix2 r' j' := by
  funext ax; apply Fin.ext
  match ax with
  | ⟨0, _⟩ => show 0 + 1 * r.val = r'.val; omega
  | ⟨1, _⟩ => show o + 1 * j.val = j'.val; omega

/-! ### One grid point -/

/-- What one grid point leaves in the running total, at its one index: the total so far plus the sum over the block's
    rows of the row loss, the row's four predicted numbers, true box, logits and class read off the two blocks. -/
theorem blockAcc_apply (x0 : Vec Ideal S1024x1004 .f32) (x1 : Vec Ideal S1024x5 .f32) (xs : Vec Ideal S1x1 .f32) (kk : Fin 1024 → Fin 1000)
    (hk : ∀ r : Fin 1024, FloatOps.fptosi (F := Ideal) (φ := .f32) 32 (x1 (ix2 r (4 : Fin 5))) = BitVec.ofNat 32 (kk r).val) :
    blockAcc (F := Ideal) x0 x1 xs (ix2 (0 : Fin 1) (0 : Fin 1))
      = xs (ix2 (0 : Fin 1) (0 : Fin 1)) + ∑ r : Fin 1024,
          rowK (fun a : Fin 4 => x0 (ix2 r (⟨a.val, by have := a.isLt; omega⟩ : Fin 1004)))
               (fun a : Fin 4 => x1 (ix2 r (⟨a.val, by have := a.isLt; omega⟩ : Fin 5)))
               (fun c : Fin 1000 => x0 (ix2 r (⟨4 + c.val, by have := c.isLt; omega⟩ : Fin 1004))) (kk r) := by
  unfold blockAcc
  have hk' : ∀ r : Fin 1024,
      k0_pay5 (F := Ideal) (View.ld x1 (Rect.unit (s := S1024x5) ![0, 4] S1024x1.size inb_S1024x5_S1024x1_0_4)) (ix2 r (0 : Fin 1))
        = BitVec.ofNat 32 (kk r).val := by
    intro r
    refine (Cert.LocLoss.KPay.pay5_apply _ r).trans ?_
    refine Eq.trans ?_ (hk r)
    exact congrArg (fun i => FloatOps.fptosi (F := Ideal) (φ := .f32) 32 (x1 i)) (unit_idx2 4 _ r 0 r 4 rfl rfl)
  refine (Cert.LocLoss.KPay.pay1_apply _ _ _ xs kk hk').trans ?_
  refine congrArg (fun s => xs (ix2 (0 : Fin 1) (0 : Fin 1)) + s) (Finset.sum_congr rfl fun r _ => ?_)
  refine (congrArg (fun s => s + _) (Cert.LocLoss.KPay.pay4_apply _ _ _ _ _ r)).trans ?_
  unfold rowK
  have hp : (fun a : Fin 4 => View.ld x0 (Rect.unit (s := S1024x1004) ![0, 0] S1024x4.size inb_S1024x1004_S1024x4_0_0) (ix2 r a))
      = fun a : Fin 4 => x0 (ix2 r (⟨a.val, by have := a.isLt; omega⟩ : Fin 1004)) :=
    funext fun a => congrArg x0 (unit_idx2 0 _ r a r _ rfl (Nat.zero_add _).symm)
  have ht : (![View.ld x1 (Rect.unit (s := S1024x5) ![0, 0] S1024x1.size inb_S1024x5_S1024x1_0_0) (ix2 r (0 : Fin 1)),
        View.ld x1 (Rect.unit (s := S1024x5) ![0, 1] S1024x1.size inb_S1024x5_S1024x1_0_1) (ix2 r (0 : Fin 1)),
        View.ld x1 (Rect.unit (s := S1024x5) ![0, 2] S1024x1.size inb_S1024x5_S1024x1_0_2) (ix2 r (0 : Fin 1)),
        View.ld x1 (Rect.unit (s := S1024x5) ![0, 3] S1024x1.size inb_S1024x5_S1024x1_0_3) (ix2 r (0 : Fin 1))] : Fin 4 → EReal)
      = fun a : Fin 4 => x1 (ix2 r (⟨a.val, by have := a.isLt; omega⟩ : Fin 5)) := by
    funext a
    match a with
    | ⟨0, _⟩ => exact congrArg x1 (unit_idx2 0 _ r 0 r _ rfl rfl)
    | ⟨1, _⟩ => exact congrArg x1 (unit_idx2 1 _ r 0 r _ rfl rfl)
    | ⟨2, _⟩ => exact congrArg x1 (unit_idx2 2 _ r 0 r _ rfl rfl)
    | ⟨3, _⟩ => exact congrArg x1 (unit_idx2 3 _ r 0 r _ rfl rfl)
  have hz : (fun c : Fin 1000 => View.ld x0 (Rect.unit (s := S1024x1004) ![0, 4] S1024x1000.size inb_S1024x1004_S1024x1000_0_4) (ix2 r c))
      = fun c : Fin 1000 => x0 (ix2 r (⟨4 + c.val, by have := c.isLt; omega⟩ : Fin 1004)) :=
    funext fun c => congrArg x0 (unit_idx2 4 _ r c r _ rfl rfl)
  exact congrArg₂ (· + ·) (congrArg₂ locK hp ht) (congrArg (fun z => ceK z (kk r)) hz)

/-! ### The blocks are consecutive groups of 1024 rows -/

section Blocks

variable (m : (ℓ : Loc nD τ sig) → Buf (Elt Ideal) ℓ)

/-- The windows' index maps over the grid: block row = the point's number, block column 0. -/
theorem win_index : ∀ t : Fin grid0.N, win0_0.index t (0 : Fin 2) = t.val ∧ win0_0.index t (1 : Fin 2) = 0
    ∧ win0_1.index t (0 : Fin 2) = t.val ∧ win0_1.index t (1 : Fin 2) = 0 := by decide +kernel

/-- The first argument's block at point `t` holds, at `(r, j)`, the argument's entry `(1024 t + r, j)`. -/
theorem iblk0_apply (c : Dev nD) (t : Fin cfg0.N) (r : Fin 1024) (j : Fin 1004) (hb : 1024 * t.val + r.val < 262144) :
    iblk m c 0 t (ix2 r j) = m ((c.tc : Thread nD τ).loc main_arg0) (ix2 (⟨1024 * t.val + r.val, hb⟩ : Fin 262144) j) := by
  have hi := win_index t
  unfold iblk
  rw [View.read_apply]
  show V m c main_arg0 _ = m (c.tc.loc main_arg0) _
  unfold V
  congr 1
  funext a
  apply Fin.ext
  match a with
  | ⟨0, _⟩ => show win0_0.index t 0 * 1024 + 1 * r.val = 1024 * t.val + r.val; rw [hi.1]; omega
  | ⟨1, _⟩ => show win0_0.index t 1 * 1004 + 1 * j.val = j.val; rw [hi.2.1]; omega

/-- The second argument's block at point `t` holds, at `(r, j)`, the argument's entry `(1024 t + r, j)`. -/
theorem iblk1_apply (c : Dev nD) (t : Fin cfg0.N) (r : Fin 1024) (j : Fin 5) (hb : 1024 * t.val + r.val < 262144) :
    iblk m c 1 t (ix2 r j) = m ((c.tc : Thread nD τ).loc main_arg1) (ix2 (⟨1024 * t.val + r.val, hb⟩ : Fin 262144) j) := by
  have hi := win_index t
  unfold iblk
  rw [View.read_apply]
  show V m c main_arg1 _ = m (c.tc.loc main_arg1) _
  unfold V
  congr 1
  funext a
  apply Fin.ext
  match a with
  | ⟨0, _⟩ => show win0_1.index t 0 * 1024 + 1 * r.val = 1024 * t.val + r.val; rw [hi.2.2.1]; omega
  | ⟨1, _⟩ => show win0_1.index t 1 * 5 + 1 * j.val = j.val; rw [hi.2.2.2]; omega

end Blocks

/-! ### The running total is the recursion over block sums -/

section Chain

variable (m : (ℓ : Loc nD τ sig) → Buf (Elt Ideal) ℓ)

/-- The stored zero, at its one index. -/
theorem pay3_apply : k0_pay3 (F := Ideal) (ix2 (0 : Fin 1) (0 : Fin 1)) = cZero :=
  (congrFun (shapeCast_self (broadcast S1x1 (Scalar.ofBits (F := Ideal) .f32 0x00000000#32)) shapeCasts_S1x1_S1x1) _).trans rfl

/-- The row loss depends on its four arguments only. -/
theorem rowK_congr {p p' q q' : Fin 4 → EReal} {z z' : Fin 1000 → EReal} (k : Fin 1000) (h1 : p = p') (h2 : q = q') (h3 : z = z') :
    rowK p q z k = rowK p' q' z' k := by rw [h1, h2, h3]

/-- One grid point adds its block's sum of row losses to the total so far. -/
theorem point_apply (c : Dev nD) (hr : InRange (m ((c.tc : Thread nD τ).loc main_arg1))) (t : Fin cfg0.N) (xs : Vec Ideal S1x1 .f32) :
    blockAcc (F := Ideal) (iblk m c 0 t) (iblk m c 1 t) xs (ix2 (0 : Fin 1) (0 : Fin 1))
      = xs (ix2 (0 : Fin 1) (0 : Fin 1))
        + blockSum (m ((c.tc : Thread nD τ).loc main_arg0)) (m ((c.tc : Thread nD τ).loc main_arg1)) t.val := by
  have hN : cfg0.N = 256 := N_0
  have ht := t.isLt
  have hb : ∀ r : Fin 1024, 1024 * t.val + r.val < 262144 := fun r => by have := r.isLt; omega
  have hk : ∀ r : Fin 1024, FloatOps.fptosi (F := Ideal) (φ := .f32) 32 (iblk m c 1 t (ix2 r (4 : Fin 5)))
      = BitVec.ofNat 32 (classIx (m ((c.tc : Thread nD τ).loc main_arg1)) ⟨1024 * t.val + r.val, hb r⟩).val := by
    intro r
    rw [iblk1_apply m c t r 4 (hb r)]
    exact classWord_eq _ hr ⟨1024 * t.val + r.val, hb r⟩
  refine (blockAcc_apply _ _ xs (fun r => classIx (m ((c.tc : Thread nD τ).loc main_arg1)) ⟨1024 * t.val + r.val, hb r⟩) hk).trans ?_
  refine congrArg (fun s => xs (ix2 (0 : Fin 1) (0 : Fin 1)) + s) (Finset.sum_congr rfl fun r _ => ?_)
  unfold rowOf
  rw [dif_pos (hb r)]
  exact rowK_congr _
    (funext fun a => iblk0_apply m c t r _ (hb r))
    (funext fun a => iblk1_apply m c t r _ (hb r))
    (funext fun cc => iblk0_apply m c t r _ (hb r))

/-- The scratch word after grid point `n` is the running total of the block sums of row losses. -/
theorem chain_apply (c : Dev nD) (hr : InRange (m ((c.tc : Thread nD τ).loc main_arg1))) :
    ∀ (n : ℕ) (h : n < cfg0.N), chain (F := Ideal) m c n h (ix2 (0 : Fin 1) (0 : Fin 1))
      = acc (blockSum (m ((c.tc : Thread nD τ).loc main_arg0)) (m ((c.tc : Thread nD τ).loc main_arg1))) n
  | 0, h => by
    show blockAcc (F := Ideal) (iblk m c 0 ⟨0, h⟩) (iblk m c 1 ⟨0, h⟩) (k0_pay3 (F := Ideal)) (ix2 (0 : Fin 1) (0 : Fin 1)) = _
    rw [point_apply m c hr ⟨0, h⟩, pay3_apply, acc_zero]
  | n + 1, h => by
    by_cases h0 : (n + 1) % 128 = 0
    · rw [chain_reset m c n h h0, point_apply m c hr ⟨n + 1, h⟩, pay3_apply, acc_reset _ n h0]
    · rw [chain_step m c n h h0, point_apply m c hr ⟨n + 1, h⟩, chain_apply c hr n _, acc_step _ n h0]

end Chain

end Cert.KernelIdeal.KVal

end
-- ==== Proof.KMean.lean ====
/-
  The kernel's result as a number. The output array holds, at half q, the running total after block 128 q + 127,
  which is the sum of that half's 128 block sums; the two halves together are the sum of the row losses over all
  262144 rows, and the result adds them to zero and divides by the row count: the mean in the kernel's spelling.
-/
import proofs.«162990_j91070486544852_2_alg».proof.Proof.KFinal
import proofs.«162990_j91070486544852_2_alg».proof.Proof.KBlock
import Idealize.ShloMosaic.PureOps.Ideal.Laws
import Idealize.ShloMosaic.Lib.ValueIdx

set_option maxRecDepth 16384

noncomputable section

namespace Cert.KernelIdeal.KVal

open Idealize.ShloMosaic Idealize.ShloMosaic.ValueIdx Idealize.ShloMosaic.TcCoe Idealize.SL.Sem
open Cert.KernelIdeal Cert.KernelIdeal.Gen Cert.LocLoss

/-- The two halves' last running totals add up to the sum of all the row losses. -/
theorem sum_halves (X0 : SOut.Idx → EReal) (X1 : STgt.Idx → EReal) :
    ∑ q : Fin 2, acc (blockSum X0 X1) (128 * q.val + 127)
      = ∑ b : Fin 262144, rowK (boxP X0 b) (boxT X1 b) (logits X0 b) (classIx X1 b) := by
  have h1 : ∀ q : Fin 2, acc (blockSum X0 X1) (128 * q.val + 127)
      = ∑ j : Fin 128, ∑ r : Fin 1024, rowOf X0 X1 (1024 * (128 * q.val + j.val) + r.val) :=
    fun q => acc_last _ q.val
  rw [Finset.sum_congr rfl (fun q _ => h1 q), sum_blocks (rowOf X0 X1)]
  refine Finset.sum_congr rfl fun b _ => ?_
  unfold rowOf
  rw [dif_pos b.isLt]

/-- An index of the two-word output array is its half's number followed by zeros. -/
theorem half_idx (j : S2x1x1.Idx) : ix3 (j 0) (0 : Fin 1) (0 : Fin 1) = j := by
  funext a
  match a with
  | ⟨0, _⟩ => rfl
  | ⟨1, _⟩ => exact Fin.ext (by have h : (j 1).val < 1 := (j 1).isLt; show 0 = (j 1).val; omega)
  | ⟨2, _⟩ => exact Fin.ext (by have h : (j 2).val < 1 := (j 2).isLt; show 0 = (j 2).val; omega)

/-- The output array's indices are the two halves. -/
def halfEquiv : S2x1x1.Idx ≃ Fin 2 where
  toFun j := j 0
  invFun q := ix3 q (0 : Fin 1) (0 : Fin 1)
  left_inv := half_idx
  right_inv _ := rfl

/-- The kernel's result is the mean of the row losses in the kernel's spelling. -/
theorem kres_eq (m : (ℓ : Loc nD τ sig) → Buf (Elt Ideal) ℓ) (c : Dev nD)
    (hr : InRange (m ((c.tc : Thread nD τ).loc main_arg1))) (i : S_.Idx) :
    kres (F := Ideal) m c i = meanK (m ((c.tc : Thread nD τ).loc main_arg0)) (m ((c.tc : Thread nD τ).loc main_arg1)) := by
  unfold kres meanK
  show Ideal.div (Host.reduceAdd (outArr m c) (constant S_ .f32 0x00000000#32) reducesTo_S2x1x1_S_d0_1_2 h_S_ i)
    (Ideal.ofBits .f32 0x48800000#32) = _
  refine congrArg₂ Ideal.div ?_ rfl
  simp only [Host.reduceAdd, Ideal.hostReduceAdd_def]
  rw [Ideal.hostReduceAdd_total reducesTo_S2x1x1_S_d0_1_2 (fun b => b.elim0) (outArr m c) _ i]
  refine congrArg₂ (· + ·) rfl ?_
  rw [← sum_halves]
  refine Fintype.sum_equiv halfEquiv _ _ (fun j => ?_)
  show outArr m c j = acc (blockSum _ _) (128 * (j 0).val + 127)
  unfold outArr
  exact chain_apply m c hr _ _

end Cert.KernelIdeal.KVal

end
-- ==== Proof.HRun.lean ====
/-
  The reference program's run, read stage by stage. The program is a straight line of 83 host operations; run whole,
  every buffer ends at the fold of the operations' results over the launch contents. The fold is read in five
  stretches, each a short list whose results are stated as the program's stages (the box term; the two slices the
  class and the logits come from; the log-softmax; the gather; the mean): a stretch's result at a buffer it writes
  is that buffer's stage of the arguments, given that the buffers it reads hold their stages, and every buffer it
  does not write is left alone. Composed, the result buffer ends at the last stage of the two argument arrays.
-/
import proofs.«162990_j91070486544852_2_alg».proof.Proof.Gen.ReferenceIdeal
import proofs.«162990_j91070486544852_2_alg».proof.Proof.ReadP
import Idealize.ShloMosaic.Lib.StableHlo.Run

noncomputable section

namespace Cert.ReferenceIdeal.HRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- The box term: operations 1 to 31. -/
abbrev opsA : List (HloOp τ sig (Elt F)) :=
  [ unary main_arg0 main_v0 ((extractStridedSlice S262144x4 ![0, 0] · slices_S262144x1004_S262144x4_0_0) : (⟨S262144x1004, .f32⟩ : BufTy).Contents (Elt F) → (⟨S262144x4, .f32⟩ : BufTy).Contents (Elt F)),
    unary main_arg1 main_v1 ((extractStridedSlice S262144x1 ![0, 0] · slices_S262144x5_S262144x1_0_0) : (⟨S262144x5, .f32⟩ : BufTy).Contents (Elt F) → (⟨S262144x1, .f32⟩ : BufTy).Contents (Elt F)),
    reshape main_v1 main_v2 rfl shapeCasts_S262144x1_S262144,
    unary main_arg1 main_v3 ((extractStridedSlice S262144x1 ![0, 1] · slices_S262144x5_S262144x1_0_1) : (⟨S262144x5, .f32⟩ : BufTy).Contents (Elt F) → (⟨S262144x1, .f32⟩ : BufTy).Contents (Elt F)),
    reshape main_v3 main_v4 rfl shapeCasts_S262144x1_S262144,
    unary main_arg1 main_v5 ((extractStridedSlice S262144x1 ![0, 2] · slices_S262144x5_S262144x1_0_2) : (⟨S262144x5, .f32⟩ : BufTy).Contents (Elt F) → (⟨S262144x1, .f32⟩ : BufTy).Contents (Elt F)),
    reshape main_v5 main_v6 rfl shapeCasts_S262144x1_S262144,
    unary main_arg1 main_v7 ((extractStridedSlice S262144x1 ![0, 3] · slices_S262144x5_S262144x1_0_3) : (⟨S262144x5, .f32⟩ : BufTy).Contents (Elt F) → (⟨S262144x1, .f32⟩ : BufTy).Contents (Elt F)),
    reshape main_v7 main_v8 rfl shapeCasts_S262144x1_S262144,
    binary main_v2 main_v6 main_v9 (addf : (⟨S262144, .f32⟩ : BufTy).Contents (Elt F) → (⟨S262144, .f32⟩ : BufTy).Contents (Elt F) → (⟨S262144, .f32⟩ : BufTy).Contents (Elt F)),
    nullary main_cst (constant S_ .f32 0x3F000000#32),
    unary main_cst main_v10 (broadcastInDim S262144 ![] bcast_S_S262144 : (⟨S_, .f32⟩ : BufTy).Contents (Elt F) → (⟨S262144, .f32⟩ : BufTy).Contents (Elt F)),
    binary main_v9 main_v10 main_v11 (mulf : (⟨S262144, .f32⟩ : BufTy).Contents (Elt F) → (⟨S262144, .f32⟩ : BufTy).Contents (Elt F) → (⟨S262144, .f32⟩ : BufTy).Contents (Elt F)),
    binary main_v4 main_v8 main_v12 (addf : (⟨S262144, .f32⟩ : BufTy).Contents (Elt F) → (⟨S262144, .f32⟩ : BufTy).Contents (Elt F) → (⟨S262144, .f32⟩ : BufTy).Contents (Elt F)),
    nullary main_cst_0 (constant S_ .f32 0x3F000000#32),
    unary main_cst_0 main_v13 (broadcastInDim S262144 ![] bcast_S_S262144 : (⟨S_, .f32⟩ : BufTy).Contents (Elt F) → (⟨S262144, .f32⟩ : BufTy).Contents (Elt F)),
    binary main_v12 main_v13 main_v14 (mulf : (⟨S262144, .f32⟩ : BufTy).Contents (Elt F) → (⟨S262144, .f32⟩ : BufTy).Contents (Elt F) → (⟨S262144, .f32⟩ : BufTy).Contents (Elt F)),
    binary main_v6 main_v2 main_v15 (subf : (⟨S262144, .f32⟩ : BufTy).Contents (Elt F) → (⟨S262144, .f32⟩ : BufTy).Contents (Elt F) → (⟨S262144, .f32⟩ : BufTy).Contents (Elt F)),
    binary main_v8 main_v4 main_v16 (subf : (⟨S262144, .f32⟩ : BufTy).Contents (Elt F) → (⟨S262144, .f32⟩ : BufTy).Contents (Elt F) → (⟨S262144, .f32⟩ : BufTy).Contents (Elt F)),
    unary main_v11 main_v17 (broadcastInDim S262144x1 ![0] bcast_S262144_S262144x1_0 : (⟨S262144, .f32⟩ : BufTy).Contents (Elt F) → (⟨S262144x1, .f32⟩ : BufTy).Contents (Elt F)),
    unary main_v14 main_v18 (broadcastInDim S262144x1 ![0] bcast_S262144_S262144x1_0 : (⟨S262144, .f32⟩ : BufTy).Contents (Elt F) → (⟨S262144x1, .f32⟩ : BufTy).Contents (Elt F)),
    unary main_v15 main_v19 (broadcastInDim S262144x1 ![0] bcast_S262144_S262144x1_0 : (⟨S262144, .f32⟩ : BufTy).Contents (Elt F) → (⟨S262144x1, .f32⟩ : BufTy).Contents (Elt F)),
    unary main_v16 main_v20 (broadcastInDim S262144x1 ![0] bcast_S262144_S262144x1_0 : (⟨S262144, .f32⟩ : BufTy).Contents (Elt F) → (⟨S262144x1, .f32⟩ : BufTy).Contents (Elt F)),
    nary ![main_v17, main_v18, main_v19, main_v20] main_v21 (fun u => concatenate S262144x4 1 [⟨S262144x1, u 0⟩, ⟨S262144x1, u 1⟩, ⟨S262144x1, u 2⟩, ⟨S262144x1, u 3⟩] concatenates_S262144x1_S262144x1_S262144x1_S262144x1_S262144x4_d1),
    binary main_v0 main_v21 main_v22 (subf : (⟨S262144x4, .f32⟩ : BufTy).Contents (Elt F) → (⟨S262144x4, .f32⟩ : BufTy).Contents (Elt F) → (⟨S262144x4, .f32⟩ : BufTy).Contents (Elt F)),
    binary main_v22 main_v22 main_v23 (mulf : (⟨S262144x4, .f32⟩ : BufTy).Contents (Elt F) → (⟨S262144x4, .f32⟩ : BufTy).Contents (Elt F) → (⟨S262144x4, .f32⟩ : BufTy).Contents (Elt F)),
    nullary main_cst_1 (constant S_ .f32 0x00000000#32),
    binary main_v23 main_cst_1 main_v24 ((fun x v => Host.reduceAdd x v reducesTo_S262144x4_S262144_d1 h_S_) : (⟨S262144x4, .f32⟩ : BufTy).Contents (Elt F) → (⟨S_, .f32⟩ : BufTy).Contents (Elt F) → (⟨S262144, .f32⟩ : BufTy).Contents (Elt F)),
    nullary main_cst_2 (constant S_ .f32 0x40800000#32),
    unary main_cst_2 main_v25 (broadcastInDim S262144 ![] bcast_S_S262144 : (⟨S_, .f32⟩ : BufTy).Contents (Elt F) → (⟨S262144, .f32⟩ : BufTy).Contents (Elt F)),
    binary main_v24 main_v25 main_v26 (Host.divf : (⟨S262144, .f32⟩ : BufTy).Contents (Elt F) → (⟨S262144, .f32⟩ : BufTy).Contents (Elt F) → (⟨S262144, .f32⟩ : BufTy).Contents (Elt F)) ]

/-- The logits' slice and the class column, converted: operations 32 to 35. -/
abbrev opsB : List (HloOp τ sig (Elt F)) :=
  [ unary main_arg0 main_v27 ((extractStridedSlice S262144x1000 ![0, 4] · slices_S262144x1004_S262144x1000_0_4) : (⟨S262144x1004, .f32⟩ : BufTy).Contents (Elt F) → (⟨S262144x1000, .f32⟩ : BufTy).Contents (Elt F)),
    unary main_arg1 main_v28 ((extractStridedSlice S262144x1 ![0, 4] · slices_S262144x5_S262144x1_0_4) : (⟨S262144x5, .f32⟩ : BufTy).Contents (Elt F) → (⟨S262144x1, .f32⟩ : BufTy).Contents (Elt F)),
    reshape main_v28 main_v29 rfl shapeCasts_S262144x1_S262144,
    unary main_v29 main_v30 (fptosi 32 : (⟨S262144, .f32⟩ : BufTy).Contents (Elt F) → (⟨S262144, .i32⟩ : BufTy).Contents (Elt F)) ]

/-- The log-softmax of the logits: operations 36 to 50. -/
abbrev opsC : List (HloOp τ sig (Elt F)) :=
  [ TRef.nullary (TRef.of (T := ⟨S_, .f32⟩) main_call0_cst) (constant S_ .f32 0xFF800000#32),
    TRef.binary (TRef.of (T := ⟨S262144x1000, .f32⟩) main_v27) (TRef.of (T := ⟨S_, .f32⟩) main_call0_cst) (TRef.of (T := ⟨S262144, .f32⟩) main_call0_v0) (fun x v => Host.reduce FloatOps.maximumf x v reducesTo_S262144x1000_S262144_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S262144, .f32⟩) main_call0_v1) (broadcastInDim S262144 ![] bcast_S_S262144),
    TRef.binary (TRef.of (T := ⟨S262144, .f32⟩) main_call0_v1) (TRef.of (T := ⟨S262144, .f32⟩) main_call0_v0) (TRef.of (T := ⟨S262144, .f32⟩) main_call0_v2) maximumf,
    TRef.unary (TRef.of (T := ⟨S262144, .f32⟩) main_call0_v2) (TRef.of (T := ⟨S262144x1, .f32⟩) main_call0_v3) (broadcastInDim S262144x1 ![0] bcast_S262144_S262144x1_0),
    TRef.unary (TRef.of (T := ⟨S262144x1, .f32⟩) main_call0_v3) (TRef.of (T := ⟨S262144x1000, .f32⟩) main_call0_v4) (broadcastInDim S262144x1000 ![0, 1] bcast_S262144x1_S262144x1000_0_1),
    TRef.binary (TRef.of (T := ⟨S262144x1000, .f32⟩) main_v27) (TRef.of (T := ⟨S262144x1000, .f32⟩) main_call0_v4) (TRef.of (T := ⟨S262144x1000, .f32⟩) main_call0_v5) subf,
    TRef.unary (TRef.of (T := ⟨S262144x1000, .f32⟩) main_call0_v5) (TRef.of (T := ⟨S262144x1000, .f32⟩) main_call0_v6) Host.exp,
    TRef.nullary (TRef.of (T := ⟨S_, .f32⟩) main_call0_cst_1) (constant S_ .f32 0x00000000#32),
    TRef.binary (TRef.of (T := ⟨S262144x1000, .f32⟩) main_call0_v6) (TRef.of (T := ⟨S_, .f32⟩) main_call0_cst_1) (TRef.of (T := ⟨S262144, .f32⟩) main_call0_v7) (fun x v => Host.reduceAdd x v reducesTo_S262144x1000_S262144_d1 h_S_),
    TRef.unary (TRef.of (T := ⟨S262144, .f32⟩) main_call0_v7) (TRef.of (T := ⟨S262144x1, .f32⟩) main_call0_v8) (broadcastInDim S262144x1 ![0] bcast_S262144_S262144x1_0),
    TRef.unary (TRef.of (T := ⟨S262144x1, .f32⟩) main_call0_v8) (TRef.of (T := ⟨S262144x1, .f32⟩) main_call0_v9) Host.log,
    TRef.unary (TRef.of (T := ⟨S262144x1, .f32⟩) main_call0_v9) (TRef.of (T := ⟨S262144x1000, .f32⟩) main_call0_v10) (broadcastInDim S262144x1000 ![0, 1] bcast_S262144x1_S262144x1000_0_1),
    TRef.binary (TRef.of (T := ⟨S262144x1000, .f32⟩) main_call0_v5) (TRef.of (T := ⟨S262144x1000, .f32⟩) main_call0_v10) (TRef.of (T := ⟨S262144x1000, .f32⟩) main_v31) subf ]

/-- The log-probability at each row's class: operations 51 to 73. -/
abbrev opsD : List (HloOp τ sig (Elt F)) :=
  [ unary main_v30 main_v32 (broadcastInDim S262144x1 ![0] bcast_S262144_S262144x1_0 : (⟨S262144, .i32⟩ : BufTy).Contents (Elt F) → (⟨S262144x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S262144x1, .i32⟩) main_call1_v0) (broadcastInDim S262144x1 ![] bcast_S_S262144x1),
    TRef.binary (TRef.of (T := ⟨S262144x1, .i32⟩) main_v32) (TRef.of (T := ⟨S262144x1, .i32⟩) main_call1_v0) (TRef.of (T := ⟨S262144x1, .i1⟩) main_call1_v1) (cmpi .slt),
    TRef.nullary (TRef.of (T := ⟨S_, .i32⟩) main_call1_c_0) (constantI S_ 32 1000#32),
    TRef.unary (TRef.of (T := ⟨S_, .i32⟩) main_call1_c_0) (TRef.of (T := ⟨S262144x1, .i32⟩) main_call1_v2) (broadcastInDim S262144x1 ![] bcast_S_S262144x1),
    TRef.binary (TRef.of (T := ⟨S262144x1, .i32⟩) main_v32) (TRef.of (T := ⟨S262144x1, .i32⟩) main_call1_v2) (TRef.of (T := ⟨S262144x1, .i32⟩) main_call1_v3) addi,
    TRef.ternary (TRef.of (T := ⟨S262144x1, .i1⟩) main_call1_v1) (TRef.of (T := ⟨S262144x1, .i32⟩) main_call1_v3) (TRef.of (T := ⟨S262144x1, .i32⟩) main_v32) (TRef.of (T := ⟨S262144x1, .i32⟩) main_call1_v4) select,
    TRef.reshape (TRef.of (T := ⟨S262144x1, .i32⟩) main_call1_v4) (TRef.of (T := ⟨S262144x1x1, .i32⟩) main_call1_v5) rfl shapeCasts_S262144x1_S262144x1x1,
    TRef.nullary (TRef.of (T := ⟨S1, .i32⟩) main_call1_c_1) (constantI S1 32 999#32),
    TRef.nullary (TRef.of (T := ⟨S_, .i32⟩) main_call1_c_2) (constantI S_ 32 0#32),
    TRef.unary (TRef.of (T := ⟨S_, .i32⟩) main_call1_c_2) (TRef.of (T := ⟨S262144x1x1, .i32⟩) main_call1_v6) (broadcastInDim S262144x1x1 ![] bcast_S_S262144x1x1),
    TRef.binary (TRef.of (T := ⟨S262144x1x1, .i32⟩) main_call1_v5) (TRef.of (T := ⟨S262144x1x1, .i32⟩) main_call1_v6) (TRef.of (T := ⟨S262144x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S262144x1x1, .i32⟩) main_call1_v9) (broadcastInDim S262144x1x1 ![0, 1, 2] bcast_S1x1x1_S262144x1x1_0_1_2),
    TRef.binary (TRef.of (T := ⟨S262144x1x1, .i32⟩) main_call1_v5) (TRef.of (T := ⟨S262144x1x1, .i32⟩) main_call1_v9) (TRef.of (T := ⟨S262144x1x1, .i1⟩) main_call1_v10) (cmpi .sle),
    TRef.binary (TRef.of (T := ⟨S262144x1x1, .i1⟩) main_call1_v7) (TRef.of (T := ⟨S262144x1x1, .i1⟩) main_call1_v10) (TRef.of (T := ⟨S262144x1x1, .i1⟩) main_call1_v11) andi,
    TRef.nullary (TRef.of (T := ⟨S_, .i1⟩) main_call1_c_3) (constantI S_ 1 1#1),
    TRef.binary (TRef.of (T := ⟨S262144x1x1, .i1⟩) main_call1_v11) (TRef.of (T := ⟨S_, .i1⟩) main_call1_c_3) (TRef.of (T := ⟨S262144x1, .i1⟩) main_call1_v12) (fun x v => Host.reduce IntOp.andi x v reducesTo_S262144x1x1_S262144x1_d2 h_S_),
    TRef.binary (TRef.of (T := ⟨S262144x1000, .f32⟩) main_v31) (TRef.of (T := ⟨S262144x1x1, .i32⟩) main_call1_v5) (TRef.of (T := ⟨S262144x1, .f32⟩) main_call1_v13) (fun x i => Host.gather gather_S262144x1000_S262144x1x1_S262144x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S262144x1, .f32⟩) main_call1_v14) (broadcastInDim S262144x1 ![] bcast_S_S262144x1),
    TRef.ternary (TRef.of (T := ⟨S262144x1, .i1⟩) main_call1_v12) (TRef.of (T := ⟨S262144x1, .f32⟩) main_call1_v13) (TRef.of (T := ⟨S262144x1, .f32⟩) main_call1_v14) (TRef.of (T := ⟨S262144x1, .f32⟩) main_v33) select ]

/-- The row losses and their mean: operations 74 to 83. -/
abbrev opsE : List (HloOp τ sig (Elt F)) :=
  [ reshape main_v33 main_v34 rfl shapeCasts_S262144x1_S262144,
    unary main_v34 main_v35 (Host.negf : (⟨S262144, .f32⟩ : BufTy).Contents (Elt F) → (⟨S262144, .f32⟩ : BufTy).Contents (Elt F)),
    nullary main_cst_3 (constant S_ .f32 0x3F800000#32),
    unary main_cst_3 main_v36 (broadcastInDim S262144 ![] bcast_S_S262144 : (⟨S_, .f32⟩ : BufTy).Contents (Elt F) → (⟨S262144, .f32⟩ : BufTy).Contents (Elt F)),
    binary main_v36 main_v35 main_v37 (mulf : (⟨S262144, .f32⟩ : BufTy).Contents (Elt F) → (⟨S262144, .f32⟩ : BufTy).Contents (Elt F) → (⟨S262144, .f32⟩ : BufTy).Contents (Elt F)),
    binary main_v26 main_v37 main_v38 (addf : (⟨S262144, .f32⟩ : BufTy).Contents (Elt F) → (⟨S262144, .f32⟩ : BufTy).Contents (Elt F) → (⟨S262144, .f32⟩ : BufTy).Contents (Elt F)),
    nullary main_cst_4 (constant S_ .f32 0x00000000#32),
    binary main_v38 main_cst_4 main_v39 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_cst_5 (constant S_ .f32 0x48800000#32),
    binary main_v39 main_cst_5 main_v40 (Host.divf : (⟨S_, .f32⟩ : BufTy).Contents (Elt F) → (⟨S_, .f32⟩ : BufTy).Contents (Elt F) → (⟨S_, .f32⟩ : BufTy).Contents (Elt F)) ]

/-- @main's 83 operations, in order. -/
abbrev ops : List (HloOp τ sig (Elt F)) :=
  [ unary main_arg0 main_v0 ((extractStridedSlice S262144x4 ![0, 0] · slices_S262144x1004_S262144x4_0_0) : (⟨S262144x1004, .f32⟩ : BufTy).Contents (Elt F) → (⟨S262144x4, .f32⟩ : BufTy).Contents (Elt F)),
    unary main_arg1 main_v1 ((extractStridedSlice S262144x1 ![0, 0] · slices_S262144x5_S262144x1_0_0) : (⟨S262144x5, .f32⟩ : BufTy).Contents (Elt F) → (⟨S262144x1, .f32⟩ : BufTy).Contents (Elt F)),
    reshape main_v1 main_v2 rfl shapeCasts_S262144x1_S262144,
    unary main_arg1 main_v3 ((extractStridedSlice S262144x1 ![0, 1] · slices_S262144x5_S262144x1_0_1) : (⟨S262144x5, .f32⟩ : BufTy).Contents (Elt F) → (⟨S262144x1, .f32⟩ : BufTy).Contents (Elt F)),
    reshape main_v3 main_v4 rfl shapeCasts_S262144x1_S262144,
    unary main_arg1 main_v5 ((extractStridedSlice S262144x1 ![0, 2] · slices_S262144x5_S262144x1_0_2) : (⟨S262144x5, .f32⟩ : BufTy).Contents (Elt F) → (⟨S262144x1, .f32⟩ : BufTy).Contents (Elt F)),
    reshape main_v5 main_v6 rfl shapeCasts_S262144x1_S262144,
    unary main_arg1 main_v7 ((extractStridedSlice S262144x1 ![0, 3] · slices_S262144x5_S262144x1_0_3) : (⟨S262144x5, .f32⟩ : BufTy).Contents (Elt F) → (⟨S262144x1, .f32⟩ : BufTy).Contents (Elt F)),
    reshape main_v7 main_v8 rfl shapeCasts_S262144x1_S262144,
    binary main_v2 main_v6 main_v9 (addf : (⟨S262144, .f32⟩ : BufTy).Contents (Elt F) → (⟨S262144, .f32⟩ : BufTy).Contents (Elt F) → (⟨S262144, .f32⟩ : BufTy).Contents (Elt F)),
    nullary main_cst (constant S_ .f32 0x3F000000#32),
    unary main_cst main_v10 (broadcastInDim S262144 ![] bcast_S_S262144 : (⟨S_, .f32⟩ : BufTy).Contents (Elt F) → (⟨S262144, .f32⟩ : BufTy).Contents (Elt F)),
    binary main_v9 main_v10 main_v11 (mulf : (⟨S262144, .f32⟩ : BufTy).Contents (Elt F) → (⟨S262144, .f32⟩ : BufTy).Contents (Elt F) → (⟨S262144, .f32⟩ : BufTy).Contents (Elt F)),
    binary main_v4 main_v8 main_v12 (addf : (⟨S262144, .f32⟩ : BufTy).Contents (Elt F) → (⟨S262144, .f32⟩ : BufTy).Contents (Elt F) → (⟨S262144, .f32⟩ : BufTy).Contents (Elt F)),
    nullary main_cst_0 (constant S_ .f32 0x3F000000#32),
    unary main_cst_0 main_v13 (broadcastInDim S262144 ![] bcast_S_S262144 : (⟨S_, .f32⟩ : BufTy).Contents (Elt F) → (⟨S262144, .f32⟩ : BufTy).Contents (Elt F)),
    binary main_v12 main_v13 main_v14 (mulf : (⟨S262144, .f32⟩ : BufTy).Contents (Elt F) → (⟨S262144, .f32⟩ : BufTy).Contents (Elt F) → (⟨S262144, .f32⟩ : BufTy).Contents (Elt F)),
    binary main_v6 main_v2 main_v15 (subf : (⟨S262144, .f32⟩ : BufTy).Contents (Elt F) → (⟨S262144, .f32⟩ : BufTy).Contents (Elt F) → (⟨S262144, .f32⟩ : BufTy).Contents (Elt F)),
    binary main_v8 main_v4 main_v16 (subf : (⟨S262144, .f32⟩ : BufTy).Contents (Elt F) → (⟨S262144, .f32⟩ : BufTy).Contents (Elt F) → (⟨S262144, .f32⟩ : BufTy).Contents (Elt F)),
    unary main_v11 main_v17 (broadcastInDim S262144x1 ![0] bcast_S262144_S262144x1_0 : (⟨S262144, .f32⟩ : BufTy).Contents (Elt F) → (⟨S262144x1, .f32⟩ : BufTy).Contents (Elt F)),
    unary main_v14 main_v18 (broadcastInDim S262144x1 ![0] bcast_S262144_S262144x1_0 : (⟨S262144, .f32⟩ : BufTy).Contents (Elt F) → (⟨S262144x1, .f32⟩ : BufTy).Contents (Elt F)),
    unary main_v15 main_v19 (broadcastInDim S262144x1 ![0] bcast_S262144_S262144x1_0 : (⟨S262144, .f32⟩ : BufTy).Contents (Elt F) → (⟨S262144x1, .f32⟩ : BufTy).Contents (Elt F)),
    unary main_v16 main_v20 (broadcastInDim S262144x1 ![0] bcast_S262144_S262144x1_0 : (⟨S262144, .f32⟩ : BufTy).Contents (Elt F) → (⟨S262144x1, .f32⟩ : BufTy).Contents (Elt F)),
    nary ![main_v17, main_v18, main_v19, main_v20] main_v21 (fun u => concatenate S262144x4 1 [⟨S262144x1, u 0⟩, ⟨S262144x1, u 1⟩, ⟨S262144x1, u 2⟩, ⟨S262144x1, u 3⟩] concatenates_S262144x1_S262144x1_S262144x1_S262144x1_S262144x4_d1),
    binary main_v0 main_v21 main_v22 (subf : (⟨S262144x4, .f32⟩ : BufTy).Contents (Elt F) → (⟨S262144x4, .f32⟩ : BufTy).Contents (Elt F) → (⟨S262144x4, .f32⟩ : BufTy).Contents (Elt F)),
    binary main_v22 main_v22 main_v23 (mulf : (⟨S262144x4, .f32⟩ : BufTy).Contents (Elt F) → (⟨S262144x4, .f32⟩ : BufTy).Contents (Elt F) → (⟨S262144x4, .f32⟩ : BufTy).Contents (Elt F)),
    nullary main_cst_1 (constant S_ .f32 0x00000000#32),
    binary main_v23 main_cst_1 main_v24 ((fun x v => Host.reduceAdd x v reducesTo_S262144x4_S262144_d1 h_S_) : (⟨S262144x4, .f32⟩ : BufTy).Contents (Elt F) → (⟨S_, .f32⟩ : BufTy).Contents (Elt F) → (⟨S262144, .f32⟩ : BufTy).Contents (Elt F)),
    nullary main_cst_2 (constant S_ .f32 0x40800000#32),
    unary main_cst_2 main_v25 (broadcastInDim S262144 ![] bcast_S_S262144 : (⟨S_, .f32⟩ : BufTy).Contents (Elt F) → (⟨S262144, .f32⟩ : BufTy).Contents (Elt F)),
    binary main_v24 main_v25 main_v26 (Host.divf : (⟨S262144, .f32⟩ : BufTy).Contents (Elt F) → (⟨S262144, .f32⟩ : BufTy).Contents (Elt F) → (⟨S262144, .f32⟩ : BufTy).Contents (Elt F)),
    unary main_arg0 main_v27 ((extractStridedSlice S262144x1000 ![0, 4] · slices_S262144x1004_S262144x1000_0_4) : (⟨S262144x1004, .f32⟩ : BufTy).Contents (Elt F) → (⟨S262144x1000, .f32⟩ : BufTy).Contents (Elt F)),
    unary main_arg1 main_v28 ((extractStridedSlice S262144x1 ![0, 4] · slices_S262144x5_S262144x1_0_4) : (⟨S262144x5, .f32⟩ : BufTy).Contents (Elt F) → (⟨S262144x1, .f32⟩ : BufTy).Contents (Elt F)),
    reshape main_v28 main_v29 rfl shapeCasts_S262144x1_S262144,
    unary main_v29 main_v30 (fptosi 32 : (⟨S262144, .f32⟩ : BufTy).Contents (Elt F) → (⟨S262144, .i32⟩ : BufTy).Contents (Elt F)),
    TRef.nullary (TRef.of (T := ⟨S_, .f32⟩) main_call0_cst) (constant S_ .f32 0xFF800000#32),
    TRef.binary (TRef.of (T := ⟨S262144x1000, .f32⟩) main_v27) (TRef.of (T := ⟨S_, .f32⟩) main_call0_cst) (TRef.of (T := ⟨S262144, .f32⟩) main_call0_v0) (fun x v => Host.reduce FloatOps.maximumf x v reducesTo_S262144x1000_S262144_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S262144, .f32⟩) main_call0_v1) (broadcastInDim S262144 ![] bcast_S_S262144),
    TRef.binary (TRef.of (T := ⟨S262144, .f32⟩) main_call0_v1) (TRef.of (T := ⟨S262144, .f32⟩) main_call0_v0) (TRef.of (T := ⟨S262144, .f32⟩) main_call0_v2) maximumf,
    TRef.unary (TRef.of (T := ⟨S262144, .f32⟩) main_call0_v2) (TRef.of (T := ⟨S262144x1, .f32⟩) main_call0_v3) (broadcastInDim S262144x1 ![0] bcast_S262144_S262144x1_0),
    TRef.unary (TRef.of (T := ⟨S262144x1, .f32⟩) main_call0_v3) (TRef.of (T := ⟨S262144x1000, .f32⟩) main_call0_v4) (broadcastInDim S262144x1000 ![0, 1] bcast_S262144x1_S262144x1000_0_1),
    TRef.binary (TRef.of (T := ⟨S262144x1000, .f32⟩) main_v27) (TRef.of (T := ⟨S262144x1000, .f32⟩) main_call0_v4) (TRef.of (T := ⟨S262144x1000, .f32⟩) main_call0_v5) subf,
    TRef.unary (TRef.of (T := ⟨S262144x1000, .f32⟩) main_call0_v5) (TRef.of (T := ⟨S262144x1000, .f32⟩) main_call0_v6) Host.exp,
    TRef.nullary (TRef.of (T := ⟨S_, .f32⟩) main_call0_cst_1) (constant S_ .f32 0x00000000#32),
    TRef.binary (TRef.of (T := ⟨S262144x1000, .f32⟩) main_call0_v6) (TRef.of (T := ⟨S_, .f32⟩) main_call0_cst_1) (TRef.of (T := ⟨S262144, .f32⟩) main_call0_v7) (fun x v => Host.reduceAdd x v reducesTo_S262144x1000_S262144_d1 h_S_),
    TRef.unary (TRef.of (T := ⟨S262144, .f32⟩) main_call0_v7) (TRef.of (T := ⟨S262144x1, .f32⟩) main_call0_v8) (broadcastInDim S262144x1 ![0] bcast_S262144_S262144x1_0),
    TRef.unary (TRef.of (T := ⟨S262144x1, .f32⟩) main_call0_v8) (TRef.of (T := ⟨S262144x1, .f32⟩) main_call0_v9) Host.log,
    TRef.unary (TRef.of (T := ⟨S262144x1, .f32⟩) main_call0_v9) (TRef.of (T := ⟨S262144x1000, .f32⟩) main_call0_v10) (broadcastInDim S262144x1000 ![0, 1] bcast_S262144x1_S262144x1000_0_1),
    TRef.binary (TRef.of (T := ⟨S262144x1000, .f32⟩) main_call0_v5) (TRef.of (T := ⟨S262144x1000, .f32⟩) main_call0_v10) (TRef.of (T := ⟨S262144x1000, .f32⟩) main_v31) subf,
    unary main_v30 main_v32 (broadcastInDim S262144x1 ![0] bcast_S262144_S262144x1_0 : (⟨S262144, .i32⟩ : BufTy).Contents (Elt F) → (⟨S262144x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S262144x1, .i32⟩) main_call1_v0) (broadcastInDim S262144x1 ![] bcast_S_S262144x1),
    TRef.binary (TRef.of (T := ⟨S262144x1, .i32⟩) main_v32) (TRef.of (T := ⟨S262144x1, .i32⟩) main_call1_v0) (TRef.of (T := ⟨S262144x1, .i1⟩) main_call1_v1) (cmpi .slt),
    TRef.nullary (TRef.of (T := ⟨S_, .i32⟩) main_call1_c_0) (constantI S_ 32 1000#32),
    TRef.unary (TRef.of (T := ⟨S_, .i32⟩) main_call1_c_0) (TRef.of (T := ⟨S262144x1, .i32⟩) main_call1_v2) (broadcastInDim S262144x1 ![] bcast_S_S262144x1),
    TRef.binary (TRef.of (T := ⟨S262144x1, .i32⟩) main_v32) (TRef.of (T := ⟨S262144x1, .i32⟩) main_call1_v2) (TRef.of (T := ⟨S262144x1, .i32⟩) main_call1_v3) addi,
    TRef.ternary (TRef.of (T := ⟨S262144x1, .i1⟩) main_call1_v1) (TRef.of (T := ⟨S262144x1, .i32⟩) main_call1_v3) (TRef.of (T := ⟨S262144x1, .i32⟩) main_v32) (TRef.of (T := ⟨S262144x1, .i32⟩) main_call1_v4) select,
    TRef.reshape (TRef.of (T := ⟨S262144x1, .i32⟩) main_call1_v4) (TRef.of (T := ⟨S262144x1x1, .i32⟩) main_call1_v5) rfl shapeCasts_S262144x1_S262144x1x1,
    TRef.nullary (TRef.of (T := ⟨S1, .i32⟩) main_call1_c_1) (constantI S1 32 999#32),
    TRef.nullary (TRef.of (T := ⟨S_, .i32⟩) main_call1_c_2) (constantI S_ 32 0#32),
    TRef.unary (TRef.of (T := ⟨S_, .i32⟩) main_call1_c_2) (TRef.of (T := ⟨S262144x1x1, .i32⟩) main_call1_v6) (broadcastInDim S262144x1x1 ![] bcast_S_S262144x1x1),
    TRef.binary (TRef.of (T := ⟨S262144x1x1, .i32⟩) main_call1_v5) (TRef.of (T := ⟨S262144x1x1, .i32⟩) main_call1_v6) (TRef.of (T := ⟨S262144x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S262144x1x1, .i32⟩) main_call1_v9) (broadcastInDim S262144x1x1 ![0, 1, 2] bcast_S1x1x1_S262144x1x1_0_1_2),
    TRef.binary (TRef.of (T := ⟨S262144x1x1, .i32⟩) main_call1_v5) (TRef.of (T := ⟨S262144x1x1, .i32⟩) main_call1_v9) (TRef.of (T := ⟨S262144x1x1, .i1⟩) main_call1_v10) (cmpi .sle),
    TRef.binary (TRef.of (T := ⟨S262144x1x1, .i1⟩) main_call1_v7) (TRef.of (T := ⟨S262144x1x1, .i1⟩) main_call1_v10) (TRef.of (T := ⟨S262144x1x1, .i1⟩) main_call1_v11) andi,
    TRef.nullary (TRef.of (T := ⟨S_, .i1⟩) main_call1_c_3) (constantI S_ 1 1#1),
    TRef.binary (TRef.of (T := ⟨S262144x1x1, .i1⟩) main_call1_v11) (TRef.of (T := ⟨S_, .i1⟩) main_call1_c_3) (TRef.of (T := ⟨S262144x1, .i1⟩) main_call1_v12) (fun x v => Host.reduce IntOp.andi x v reducesTo_S262144x1x1_S262144x1_d2 h_S_),
    TRef.binary (TRef.of (T := ⟨S262144x1000, .f32⟩) main_v31) (TRef.of (T := ⟨S262144x1x1, .i32⟩) main_call1_v5) (TRef.of (T := ⟨S262144x1, .f32⟩) main_call1_v13) (fun x i => Host.gather gather_S262144x1000_S262144x1x1_S262144x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S262144x1, .f32⟩) main_call1_v14) (broadcastInDim S262144x1 ![] bcast_S_S262144x1),
    TRef.ternary (TRef.of (T := ⟨S262144x1, .i1⟩) main_call1_v12) (TRef.of (T := ⟨S262144x1, .f32⟩) main_call1_v13) (TRef.of (T := ⟨S262144x1, .f32⟩) main_call1_v14) (TRef.of (T := ⟨S262144x1, .f32⟩) main_v33) select,
    reshape main_v33 main_v34 rfl shapeCasts_S262144x1_S262144,
    unary main_v34 main_v35 (Host.negf : (⟨S262144, .f32⟩ : BufTy).Contents (Elt F) → (⟨S262144, .f32⟩ : BufTy).Contents (Elt F)),
    nullary main_cst_3 (constant S_ .f32 0x3F800000#32),
    unary main_cst_3 main_v36 (broadcastInDim S262144 ![] bcast_S_S262144 : (⟨S_, .f32⟩ : BufTy).Contents (Elt F) → (⟨S262144, .f32⟩ : BufTy).Contents (Elt F)),
    binary main_v36 main_v35 main_v37 (mulf : (⟨S262144, .f32⟩ : BufTy).Contents (Elt F) → (⟨S262144, .f32⟩ : BufTy).Contents (Elt F) → (⟨S262144, .f32⟩ : BufTy).Contents (Elt F)),
    binary main_v26 main_v37 main_v38 (addf : (⟨S262144, .f32⟩ : BufTy).Contents (Elt F) → (⟨S262144, .f32⟩ : BufTy).Contents (Elt F) → (⟨S262144, .f32⟩ : BufTy).Contents (Elt F)),
    nullary main_cst_4 (constant S_ .f32 0x00000000#32),
    binary main_v38 main_cst_4 main_v39 ((fun x v => Host.reduceAdd x v reducesTo_S262144_S_d0 h_S_) : (⟨S262144, .f32⟩ : BufTy).Contents (Elt F) → (⟨S_, .f32⟩ : BufTy).Contents (Elt F) → (⟨S_, .f32⟩ : BufTy).Contents (Elt F)),
    nullary main_cst_5 (constant S_ .f32 0x48800000#32),
    binary main_v39 main_cst_5 main_v40 (Host.divf : (⟨S_, .f32⟩ : BufTy).Contents (Elt F) → (⟨S_, .f32⟩ : BufTy).Contents (Elt F) → (⟨S_, .f32⟩ : BufTy).Contents (Elt F)) ]

theorem ops_split : (ops : List (HloOp τ sig (Elt F))) = opsA ++ (opsB ++ (opsC ++ (opsD ++ opsE))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., reshape_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., nullary_bufs_sub .., unary_bufs_sub .., binary_bufs_sub .., binary_bufs_sub .., binary_bufs_sub .., unary_bufs_sub .., unary_bufs_sub .., unary_bufs_sub .., unary_bufs_sub .., nary_bufs_sub .., binary_bufs_sub .., binary_bufs_sub .., nullary_bufs_sub .., binary_bufs_sub .., nullary_bufs_sub .., unary_bufs_sub .., binary_bufs_sub .., unary_bufs_sub .., unary_bufs_sub .., reshape_bufs_sub .., unary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., nullary_bufs_sub .., unary_bufs_sub .., binary_bufs_sub .., binary_bufs_sub .., nullary_bufs_sub .., binary_bufs_sub .., nullary_bufs_sub .., binary_bufs_sub ..⟩

/-- The fold over a concatenation is the folds one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Contents carried to a buffer's own type and back are themselves. -/
theorem ofBuf_toBuf {T : BufTy} (t : TRef sig T) (v : T.Contents (Elt F)) : t.ofBuf (t.toBuf v) = v := by
  obtain ⟨r, h, hd, hs⟩ := t
  subst h
  rfl

/-- At a literal buffer whose declared type is the value's type, the transport is the identity. -/
theorem ofBuf_v27 (h1 h2 h3) (v : (⟨S262144x1000, .f32⟩ : BufTy).Contents (Elt F)) :
    (TRef.of (T := ⟨S262144x1000, .f32⟩) main_v27 h1 h2 h3).ofBuf v = v := rfl
theorem toBuf_v31 (h1 h2 h3) (v : (⟨S262144x1000, .f32⟩ : BufTy).Contents (Elt F)) :
    (TRef.of (T := ⟨S262144x1000, .f32⟩) main_v31 h1 h2 h3).toBuf v = v := rfl
theorem ofBuf_v31 (h1 h2 h3) (v : (⟨S262144x1000, .f32⟩ : BufTy).Contents (Elt F)) :
    (TRef.of (T := ⟨S262144x1000, .f32⟩) main_v31 h1 h2 h3).ofBuf v = v := rfl
theorem ofBuf_v32 (h1 h2 h3) (v : (⟨S262144x1, .i32⟩ : BufTy).Contents (Elt F)) :
    (TRef.of (T := ⟨S262144x1, .i32⟩) main_v32 h1 h2 h3).ofBuf v = v := rfl
theorem toBuf_v33 (h1 h2 h3) (v : (⟨S262144x1, .f32⟩ : BufTy).Contents (Elt F)) :
    (TRef.of (T := ⟨S262144x1, .f32⟩) main_v33 h1 h2 h3).toBuf v = v := rfl

section Stretches
variable (V : Valuation τ sig (Elt F))

/-! ### The box term -/
theorem A_v26 : after opsA V (Proc.devRef .tc main_v26)
    = val_main_v26 (F := F) (V (Proc.devRef .tc main_arg0)) (V (Proc.devRef .tc main_arg1)) := by
  after_results_simp <;> rfl
theorem A_arg0 : after opsA V (Proc.devRef .tc main_arg0) = V (Proc.devRef .tc main_arg0) := by after_results_simp <;> rfl
theorem A_arg1 : after opsA V (Proc.devRef .tc main_arg1) = V (Proc.devRef .tc main_arg1) := by after_results_simp <;> rfl

/-! ### The slices -/
theorem B_v27 : after opsB V (Proc.devRef .tc main_v27) = val_main_v27 (F := F) (V (Proc.devRef .tc main_arg0)) := by
  after_results_simp <;> rfl
theorem B_v30 : after opsB V (Proc.devRef .tc main_v30) = val_main_v30 (F := F) (V (Proc.devRef .tc main_arg1)) := by
  after_results_simp <;> rfl
theorem B_v26 : after opsB V (Proc.devRef .tc main_v26) = V (Proc.devRef .tc main_v26) := by after_results_simp <;> rfl
theorem B_arg0 : after opsB V (Proc.devRef .tc main_arg0) = V (Proc.devRef .tc main_arg0) := by after_results_simp <;> rfl
theorem B_arg1 : after opsB V (Proc.devRef .tc main_arg1) = V (Proc.devRef .tc main_arg1) := by after_results_simp <;> rfl

/-! ### The log-softmax -/
theorem C_v31 (x0 : (⟨S262144x1004, .f32⟩ : BufTy).Contents (Elt F)) (h27 : V (Proc.devRef .tc main_v27) = val_main_v27 (F := F) x0) :
    after opsC V (Proc.devRef .tc main_v31) = val_main_v31 (F := F) x0 := by
  after_results_simp
  simp only [ofBuf_toBuf]
  rw [h27]
  simp only [ofBuf_v27, toBuf_v31]
  rfl
theorem C_v30 : after opsC V (Proc.devRef .tc main_v30) = V (Proc.devRef .tc main_v30) := by after_results_simp <;> rfl
theorem C_v26 : after opsC V (Proc.devRef .tc main_v26) = V (Proc.devRef .tc main_v26) := by after_results_simp <;> rfl
theorem C_arg0 : after opsC V (Proc.devRef .tc main_arg0) = V (Proc.devRef .tc main_arg0) := by after_results_simp <;> rfl
theorem C_arg1 : after opsC V (Proc.devRef .tc main_arg1) = V (Proc.devRef .tc main_arg1) := by after_results_simp <;> rfl

/-! ### The log-probability at the class -/
theorem D_v33 (x0 : (⟨S262144x1004, .f32⟩ : BufTy).Contents (Elt F)) (x1 : (⟨S262144x5, .f32⟩ : BufTy).Contents (Elt F))
    (h31 : V (Proc.devRef .tc main_v31) = val_main_v31 (F := F) x0) (h30 : V (Proc.devRef .tc main_v30) = val_main_v30 (F := F) x1) :
    after opsD V (Proc.devRef .tc main_v33) = val_main_v33 (F := F) x0 x1 := by
  after_results_simp
  simp only [ofBuf_toBuf]
  rw [h31, h30]
  simp only [ofBuf_v31, ofBuf_v32, toBuf_v33]
  rfl
theorem D_v26 : after opsD V (Proc.devRef .tc main_v26) = V (Proc.devRef .tc main_v26) := by after_results_simp <;> rfl
theorem D_arg0 : after opsD V (Proc.devRef .tc main_arg0) = V (Proc.devRef .tc main_arg0) := by after_results_simp <;> rfl
theorem D_arg1 : after opsD V (Proc.devRef .tc main_arg1) = V (Proc.devRef .tc main_arg1) := by after_results_simp <;> rfl

/-! ### The mean -/
theorem E_v40 (x0 : (⟨S262144x1004, .f32⟩ : BufTy).Contents (Elt F)) (x1 : (⟨S262144x5, .f32⟩ : BufTy).Contents (Elt F))
    (h33 : V (Proc.devRef .tc main_v33) = val_main_v33 (F := F) x0 x1) (h26 : V (Proc.devRef .tc main_v26) = val_main_v26 (F := F) x0 x1) :
    after opsE V (Proc.devRef .tc main_v40) = val_main_v40 (F := F) x0 x1 := by
  after_results_simp
  rw [h33, h26]
  rfl
theorem E_arg0 : after opsE V (Proc.devRef .tc main_arg0) = V (Proc.devRef .tc main_arg0) := by after_results_simp <;> rfl
theorem E_arg1 : after opsE V (Proc.devRef .tc main_arg1) = V (Proc.devRef .tc main_arg1) := by after_results_simp <;> rfl

/-! ### The whole line -/

/-- The result buffer ends at the program's last stage of the two argument arrays. -/
theorem result_eq : after ops V (Proc.devRef .tc main_v40)
    = val_main_v40 (F := F) (V (Proc.devRef .tc main_arg0)) (V (Proc.devRef .tc main_arg1)) := by
  rw [ops_split, after_append, after_append, after_append, after_append]
  refine E_v40 _ _ _ ?_ ?_
  · refine D_v33 _ _ _ ?_ ?_
    · refine C_v31 _ _ ?_
      rw [B_v27, A_arg0]
    · rw [C_v30, B_v30, A_arg1]
  · rw [D_v26, C_v26, B_v26, A_v26]

theorem arg0_eq : after ops V (Proc.devRef .tc main_arg0) = V (Proc.devRef .tc main_arg0) := by
  rw [ops_split, after_append, after_append, after_append, after_append, E_arg0, D_arg0, C_arg0, B_arg0, A_arg0]
theorem arg1_eq : after ops V (Proc.devRef .tc main_arg1) = V (Proc.devRef .tc main_arg1) := by
  rw [ops_split, after_append, after_append, after_append, after_append, E_arg1, D_arg1, C_arg1, B_arg1, A_arg1]

end Stretches

/-- On every device, for any float values, from any memory with zero counters: every weakly fair execution of @main
    terminates with the result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
        = val_main_v40 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v40).trans (result_eq (launchContents m c)),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.HRun

end
-- ==== Proof.RefValue.lean ====
/-
  The reference program read at its one index. Stage by stage: the four concatenated columns are the true box in
  centre/size form, so the reduced squared differences over 4 are the box term; the maximum-reduce from -∞ over a
  row's logits is the row maximum, and the subtract/exponential/sum/log chain is the log-softmax; a class in
  [0, 999] is neither wrapped nor clamped and passes the validity mask, so the gather reads the log-softmax at the
  class; negated, times one, plus the box term is the row loss, and the sum over all rows from zero, over the row
  count, is the mean.
-/
import proofs.«162990_j91070486544852_2_alg».proof.Proof.ReadP
import proofs.«162990_j91070486544852_2_alg».proof.Proof.Rows
import Idealize.ShloMosaic.Lib.ValueIdx
import Idealize.ShloMosaic.Lib.Pipeline.Value
import Idealize.ShloMosaic.PureOps.Ideal.Laws
import Idealize.ShloMosaic.PureOps.Reduce
import Idealize.ShloMosaic.Lib.ReduceAll
import Idealize.ShloMosaic.Lib.Affine

noncomputable section

namespace Cert.LocLoss.Ref

open Idealize.ShloMosaic Idealize.ShloMosaic.ValueIdx Cert.ReferenceIdeal Cert.ReferenceIdeal.Gen Cert.ReferenceIdeal.ReadP Cert.LocLoss

variable [Cert.ReferenceIdeal.Facts]

/-! ### The box term -/

theorem v21_col0 (x1 : FVec Ideal S262144x5 .f32) (b : Fin 262144) :
    val_main_v21 (F := Ideal) x1 (ix2 b (0 : Fin 4)) = val_main_v17 (F := Ideal) x1 (ix2 b (0 : Fin 1)) := by
  unfold val_main_v21
  refine concatenate_apply_piece (t := S262144x4) _ _ _ _ 0 ?_ S262144x1 (val_main_v17 (F := Ideal) x1) ?_ ?_ 0 ?_
    (ix2 b (0 : Fin 1)) (fun c hc => ?_) ?_
  · show (0 : Nat) < 4
    omega
  · rfl
  · rfl
  · rfl
  · match c with
    | ⟨0, _⟩ => rfl
    | ⟨1, _⟩ => exact absurd rfl hc
  · rfl

theorem v21_col1 (x1 : FVec Ideal S262144x5 .f32) (b : Fin 262144) :
    val_main_v21 (F := Ideal) x1 (ix2 b (1 : Fin 4)) = val_main_v18 (F := Ideal) x1 (ix2 b (0 : Fin 1)) := by
  unfold val_main_v21
  refine concatenate_apply_piece (t := S262144x4) _ _ _ _ 1 ?_ S262144x1 (val_main_v18 (F := Ideal) x1) ?_ ?_ 1 ?_
    (ix2 b (0 : Fin 1)) (fun c hc => ?_) ?_
  · show (1 : Nat) < 4
    omega
  · rfl
  · rfl
  · rfl
  · match c with
    | ⟨0, _⟩ => rfl
    | ⟨1, _⟩ => exact absurd rfl hc
  · rfl

theorem v21_col2 (x1 : FVec Ideal S262144x5 .f32) (b : Fin 262144) :
    val_main_v21 (F := Ideal) x1 (ix2 b (2 : Fin 4)) = val_main_v19 (F := Ideal) x1 (ix2 b (0 : Fin 1)) := by
  unfold val_main_v21
  refine concatenate_apply_piece (t := S262144x4) _ _ _ _ 2 ?_ S262144x1 (val_main_v19 (F := Ideal) x1) ?_ ?_ 2 ?_
    (ix2 b (0 : Fin 1)) (fun c hc => ?_) ?_
  · show (2 : Nat) < 4
    omega
  · rfl
  · rfl
  · rfl
  · match c with
    | ⟨0, _⟩ => rfl
    | ⟨1, _⟩ => exact absurd rfl hc
  · rfl

theorem v21_col3 (x1 : FVec Ideal S262144x5 .f32) (b : Fin 262144) :
    val_main_v21 (F := Ideal) x1 (ix2 b (3 : Fin 4)) = val_main_v20 (F := Ideal) x1 (ix2 b (0 : Fin 1)) := by
  unfold val_main_v21
  refine concatenate_apply_piece (t := S262144x4) _ _ _ _ 3 ?_ S262144x1 (val_main_v20 (F := Ideal) x1) ?_ ?_ 3 ?_
    (ix2 b (0 : Fin 1)) (fun c hc => ?_) ?_
  · show (3 : Nat) < 4
    omega
  · rfl
  · rfl
  · rfl
  · match c with
    | ⟨0, _⟩ => rfl
    | ⟨1, _⟩ => exact absurd rfl hc
  · rfl

/-- The target's column c as the four reshaped slices read it. -/
theorem v2_eq (x1 : FVec Ideal S262144x5 .f32) (b : Fin 262144) :
    val_main_v2 (F := Ideal) x1 (ix1 b) = x1 (ix2 b (0 : Fin 5)) := by
  rw [val_main_v2_apply, val_main_v1_apply]
  exact congrArg x1 (funext fun a => match a with
    | ⟨0, _⟩ => Fin.ext (Nat.div_one _)
    | ⟨1, _⟩ => rfl)

theorem v4_eq (x1 : FVec Ideal S262144x5 .f32) (b : Fin 262144) :
    val_main_v4 (F := Ideal) x1 (ix1 b) = x1 (ix2 b (1 : Fin 5)) := by
  rw [val_main_v4_apply, val_main_v3_apply]
  exact congrArg x1 (funext fun a => match a with
    | ⟨0, _⟩ => Fin.ext (Nat.div_one _)
    | ⟨1, _⟩ => rfl)

theorem v6_eq (x1 : FVec Ideal S262144x5 .f32) (b : Fin 262144) :
    val_main_v6 (F := Ideal) x1 (ix1 b) = x1 (ix2 b (2 : Fin 5)) := by
  rw [val_main_v6_apply, val_main_v5_apply]
  exact congrArg x1 (funext fun a => match a with
    | ⟨0, _⟩ => Fin.ext (Nat.div_one _)
    | ⟨1, _⟩ => rfl)

theorem v8_eq (x1 : FVec Ideal S262144x5 .f32) (b : Fin 262144) :
    val_main_v8 (F := Ideal) x1 (ix1 b) = x1 (ix2 b (3 : Fin 5)) := by
  rw [val_main_v8_apply, val_main_v7_apply]
  exact congrArg x1 (funext fun a => match a with
    | ⟨0, _⟩ => Fin.ext (Nat.div_one _)
    | ⟨1, _⟩ => rfl)

/-- A column index of a one-column array names its row. -/
theorem col_row (b : Fin 262144) : idx_main_v17 (ix2 b (0 : Fin 1)) = ix1 b :=
  funext fun a => match a with | ⟨0, _⟩ => rfl

theorem v17_eq (x1 : FVec Ideal S262144x5 .f32) (b : Fin 262144) :
    val_main_v17 (F := Ideal) x1 (ix2 b (0 : Fin 1)) = (x1 (ix2 b (0 : Fin 5)) + x1 (ix2 b (2 : Fin 5))) * cHalf := by
  rw [val_main_v17_apply, col_row, val_main_v11_apply, val_main_v9_apply, v2_eq, v6_eq, val_main_v10_apply,
    val_main_cst_apply]
  rfl

theorem v18_eq (x1 : FVec Ideal S262144x5 .f32) (b : Fin 262144) :
    val_main_v18 (F := Ideal) x1 (ix2 b (0 : Fin 1)) = (x1 (ix2 b (1 : Fin 5)) + x1 (ix2 b (3 : Fin 5))) * cHalf := by
  rw [val_main_v18_apply, show idx_main_v18 (ix2 b (0 : Fin 1)) = ix1 b from col_row b, val_main_v14_apply, val_main_v12_apply, v4_eq, v8_eq, val_main_v13_apply,
    val_main_cst_0_apply]
  rfl

theorem v19_eq (x1 : FVec Ideal S262144x5 .f32) (b : Fin 262144) :
    val_main_v19 (F := Ideal) x1 (ix2 b (0 : Fin 1)) = x1 (ix2 b (2 : Fin 5)) - x1 (ix2 b (0 : Fin 5)) := by
  rw [val_main_v19_apply, show idx_main_v19 (ix2 b (0 : Fin 1)) = ix1 b from col_row b, val_main_v15_apply, v6_eq, v2_eq]
  rfl

theorem v20_eq (x1 : FVec Ideal S262144x5 .f32) (b : Fin 262144) :
    val_main_v20 (F := Ideal) x1 (ix2 b (0 : Fin 1)) = x1 (ix2 b (3 : Fin 5)) - x1 (ix2 b (1 : Fin 5)) := by
  rw [val_main_v20_apply, show idx_main_v20 (ix2 b (0 : Fin 1)) = ix1 b from col_row b, val_main_v16_apply, v8_eq, v4_eq]
  rfl

/-- The concatenated columns are the true box in centre/size form. -/
theorem v21_eq (x1 : FVec Ideal S262144x5 .f32) (b : Fin 262144) (k : Fin 4) :
    val_main_v21 (F := Ideal) x1 (ix2 b k) = trueBox (boxT x1 b) k :=
  match k with
  | ⟨0, _⟩ => (v21_col0 x1 b).trans (v17_eq x1 b)
  | ⟨1, _⟩ => (v21_col1 x1 b).trans (v18_eq x1 b)
  | ⟨2, _⟩ => (v21_col2 x1 b).trans (v19_eq x1 b)
  | ⟨3, _⟩ => (v21_col3 x1 b).trans (v20_eq x1 b)

theorem v0_eq (x0 : FVec Ideal S262144x1004 .f32) (b : Fin 262144) (k : Fin 4) :
    val_main_v0 (F := Ideal) x0 (ix2 b k) = boxP x0 b k := by
  rw [val_main_v0_apply]
  exact congrArg x0 (funext fun a => match a with
    | ⟨0, _⟩ => rfl
    | ⟨1, _⟩ => rfl)

theorem idx24_eq (b : Fin 262144) (k : Fin 4) : idx_main_v24 (ix1 b) k = ix2 b k :=
  funext fun a => match a with
    | ⟨0, _⟩ => rfl
    | ⟨1, _⟩ => rfl

/-- The box term of row b. -/
theorem loc_eq (x0 : FVec Ideal S262144x1004 .f32) (x1 : FVec Ideal S262144x5 .f32) (b : Fin 262144) :
    val_main_v26 (F := Ideal) x0 x1 (ix1 b) = locR (boxP x0 b) (boxT x1 b) := by
  rw [val_main_v26_apply, val_main_v24_apply, val_main_v25_apply]
  unfold locR
  refine congrArg₂ Ideal.div (congrArg (cZero + ·) (Finset.sum_congr rfl fun k _ => ?_)) rfl
  rw [idx24_eq, val_main_v23_apply, val_main_v22_apply, v0_eq, v21_eq]
  rfl

/-! ### The row maximum and the log-softmax -/

/-- A row index with a logit's column put back is that (row, column) pair. -/
theorem lift_row (h : S262144x1000.Reduces [1] S262144) (b : Fin 262144) (k : Fin (S262144x1000.size 1)) :
    h.lift (ix1 b) k = ix2 b (⟨k.val, k.isLt⟩ : Fin 1000) := by
  funext c; apply Fin.ext
  fin_cases c <;> rfl

theorem v27_eq (x0 : FVec Ideal S262144x1004 .f32) (b : Fin 262144) (c : Fin 1000) :
    val_main_v27 (F := Ideal) x0 (ix2 b c) = logits x0 b c := by
  rw [val_main_v27_apply]
  exact congrArg x0 (funext fun a => match a with
    | ⟨0, _⟩ => rfl
    | ⟨1, _⟩ => rfl)

/-- The reduce with a maximum body from -∞ over a row's logits is the row maximum. -/
theorem call0_v0_eq (x0 : FVec Ideal S262144x1004 .f32) (b : Fin 262144) :
    val_main_call0_v0 (F := Ideal) x0 (ix1 b) = rowMax (logits x0 b) := by
  unfold val_main_call0_v0
  have h : S262144x1000.Reduces [1] S262144 := by decide
  rw [Host.reduce_eq_fold_single FloatOps.maximumf _ _ reducesTo_S262144x1000_S262144_d1 h h_S_]
  have hf : (val_main_v27 (F := Ideal) x0 ∘ h.lift (ix1 b)) = logits x0 b := funext fun k => by
    show val_main_v27 (F := Ideal) x0 (h.lift (ix1 b) k) = _
    rw [lift_row h b k, v27_eq]
    rfl
  unfold rowMax
  exact congrArg (fun f => Finset.fold max (Ideal.ofBits .f32 0xFF800000#32) f (Finset.univ : Finset (Fin 1000))) hf

theorem call0_v2_eq (x0 : FVec Ideal S262144x1004 .f32) (b : Fin 262144) :
    val_main_call0_v2 (F := Ideal) x0 (ix1 b) = max cNegInf (rowMax (logits x0 b)) := by
  rw [val_main_call0_v2_apply, call0_v0_eq, val_main_call0_v1_apply, val_main_call0_cst_0_apply]
  rfl

theorem call0_v5_eq (x0 : FVec Ideal S262144x1004 .f32) (b : Fin 262144) (c : Fin 1000) :
    val_main_call0_v5 (F := Ideal) x0 (ix2 b c) = logits x0 b c - max cNegInf (rowMax (logits x0 b)) := by
  rw [val_main_call0_v5_apply, v27_eq, val_main_call0_v4_apply, val_main_call0_v3_apply,
    show idx_main_call0_v3 (idx_main_call0_v4 (ix2 b c)) = ix1 b from funext fun a => match a with | ⟨0, _⟩ => rfl,
    call0_v2_eq]
  rfl

theorem idx7_eq (b : Fin 262144) (k : Fin 1000) : idx_main_call0_v7 (ix1 b) k = ix2 b k :=
  funext fun a => match a with
    | ⟨0, _⟩ => rfl
    | ⟨1, _⟩ => rfl

/-- The sum of the exponentials of a row's shifted logits, from zero. -/
theorem call0_v7_eq (x0 : FVec Ideal S262144x1004 .f32) (b : Fin 262144) :
    val_main_call0_v7 (F := Ideal) x0 (ix1 b)
      = cZero + ∑ c : Fin 1000, Ideal.exp (logits x0 b c - max cNegInf (rowMax (logits x0 b))) := by
  rw [val_main_call0_v7_apply]
  refine congrArg (cZero + ·) (Finset.sum_congr rfl fun k _ => ?_)
  rw [idx7_eq, val_main_call0_v6_apply, call0_v5_eq]
  rfl

/-- The log-softmax of row b at column c. -/
theorem v31_eq (x0 : FVec Ideal S262144x1004 .f32) (b : Fin 262144) (c : Fin 1000) :
    val_main_v31 (F := Ideal) x0 (ix2 b c)
      = (logits x0 b c - max cNegInf (rowMax (logits x0 b)))
        - Ideal.log (cZero + ∑ c' : Fin 1000, Ideal.exp (logits x0 b c' - max cNegInf (rowMax (logits x0 b)))) := by
  rw [val_main_v31_apply, call0_v5_eq, val_main_call0_v10_apply, val_main_call0_v9_apply, val_main_call0_v8_apply,
    show idx_main_call0_v8 (idx_main_call0_v10 (ix2 b c)) = ix1 b from funext fun a => match a with | ⟨0, _⟩ => rfl,
    call0_v7_eq]
  rfl

/-! ### The class, the validity mask and the gather -/

theorem v32_eq (x1 : FVec Ideal S262144x5 .f32) (b : Fin 262144) :
    val_main_v32 (F := Ideal) x1 (ix2 b (0 : Fin 1)) = classWord x1 b := by
  rw [val_main_v32_apply, show idx_main_v32 (ix2 b (0 : Fin 1)) = ix1 b from col_row b, val_main_v30_apply,
    val_main_v29_apply, val_main_v28_apply]
  unfold classWord
  exact congrArg (FloatOps.fptosi (F := Ideal) 32) (congrArg x1 (funext fun a => match a with
    | ⟨0, _⟩ => Fin.ext (Nat.div_one _)
    | ⟨1, _⟩ => rfl))

theorem idx5_eq (b : Fin 262144) : idx_main_call1_v5 (ix3 b (0 : Fin 1) (0 : Fin 1)) = ix2 b (0 : Fin 1) :=
  funext fun a => match a with
    | ⟨0, _⟩ => Fin.ext (by show ((b.val * 1 + 0) * 1 + 0) / 1 = b.val; omega)
    | ⟨1, _⟩ => rfl

/-- A class that is not negative is not wrapped: the start index is the class word. -/
theorem call1_v5_eq (x1 : FVec Ideal S262144x5 .f32) (hr : InRange x1) (b : Fin 262144) :
    val_main_call1_v5 (F := Ideal) x1 (ix3 b (0 : Fin 1) (0 : Fin 1)) = classWord x1 b := by
  rw [val_main_call1_v5_apply, idx5_eq, val_main_call1_v4_apply, val_main_call1_v1_apply, v32_eq,
    val_main_call1_v0_apply, val_main_call1_c_apply]
  have h0 : ¬ IntOp.cmpi .slt (classWord x1 b) 0#32 = 1#1 := by
    rw [IntOp.cmpi_slt]
    have := (hr b).1
    have hz : (0#32 : BitVec 32).toInt = 0 := by decide
    omega
  rw [eq_zero_of_ne_one h0, select_zero]

/-- A reduced index with the unit coordinate put back. -/
theorem lift_unit (h : S262144x1x1.Reduces [2] S262144x1) (b : Fin 262144) (k : Fin (S262144x1x1.size 2)) :
    h.lift (ix2 b (0 : Fin 1)) k = ix3 b (0 : Fin 1) (0 : Fin 1) := by
  funext c; apply Fin.ext
  have hk : k.val = 0 := by have hlt : k.val < 1 := k.isLt; omega
  fin_cases c
  · rfl
  · rfl
  · exact hk

/-- A class in range passes both bounds checks. -/
theorem call1_v11_eq (x1 : FVec Ideal S262144x5 .f32) (hr : InRange x1) (b : Fin 262144) :
    val_main_call1_v11 (F := Ideal) x1 (ix3 b (0 : Fin 1) (0 : Fin 1)) = 1#1 := by
  rw [val_main_call1_v11_apply, IntOp.andi_eq_one, val_main_call1_v7_apply, val_main_call1_v10_apply,
    call1_v5_eq x1 hr b, val_main_call1_v6_apply, val_main_call1_c_2_apply, val_main_call1_v9_apply,
    val_main_call1_v8_apply, val_main_call1_c_1_apply, IntOp.cmpi_sge, IntOp.cmpi_sle]
  have h0 := (hr b).1
  have h1 := (hr b).2
  have hz : (0#32 : BitVec 32).toInt = 0 := by decide
  have hn : (999#32 : BitVec 32).toInt = 999 := by decide
  omega

/-- The validity mask of an in-range class is true. -/
theorem call1_v12_eq (x1 : FVec Ideal S262144x5 .f32) (hr : InRange x1) (b : Fin 262144) :
    val_main_call1_v12 (F := Ideal) x1 (ix2 b (0 : Fin 1)) = 1#1 := by
  unfold val_main_call1_v12
  have h : S262144x1x1.Reduces [2] S262144x1 := by decide
  rw [Host.reduce_eq_fold_single IntOp.andi _ _ reducesTo_S262144x1x1_S262144x1_d2 h h_S_]
  have hf : (val_main_call1_v11 (F := Ideal) x1 ∘ h.lift (ix2 b (0 : Fin 1))) = fun _ => 1#1 := funext fun k => by
    show val_main_call1_v11 (F := Ideal) x1 (h.lift (ix2 b (0 : Fin 1)) k) = _
    rw [lift_unit h b k, call1_v11_eq x1 hr b]
  rw [hf]
  show (Finset.univ : Finset (Fin 1)).fold IntOp.andi 1#1 (fun _ => 1#1) = 1#1
  rw [Finset.univ_unique, Finset.fold_singleton]
  rfl

theorem clamp_eq (w : BitVec 32) (h0 : 0 ≤ w.toInt) (h1 : w.toInt < 1000) :
    min w.toInt.toNat 999 = w.toNat % 1000 := by
  have hlt : w.toNat < 2 ^ 32 := w.isLt
  rw [BitVec.toInt_eq_toNat_cond] at h0 h1 ⊢
  by_cases h : 2 * w.toNat < 2 ^ 32
  · rw [if_pos h] at h0 h1 ⊢
    omega
  · rw [if_neg h] at h0 h1 ⊢
    omega

/-- The gather read at (b, 0): the operand at row b, at the column the start index names, read signed and
    clamped into [0, 999]. -/
theorem gather_apply (x : S262144x1000.Idx → EReal) (idx : IVec S262144x1x1 32) (b : Fin 262144) :
    Host.gather gather_S262144x1000_S262144x1x1_S262144x1_n_1_0_0_1_2_11 x idx (ix2 b (0 : Fin 1))
      = x (ix2 b (⟨min (idx (ix3 b (0 : Fin 1) (0 : Fin 1))).toInt.toNat 999, by omega⟩ : Fin 1000)) := by
  unfold Host.gather
  congr 1
  funext a
  refine Fin.ext ?_
  match a with
  | ⟨0, _⟩ =>
    show gather_S262144x1000_S262144x1x1_S262144x1_n_1_0_0_1_2_11.start (ix2 b (0 : Fin 1)) idx 0
      + gather_S262144x1000_S262144x1x1_S262144x1_n_1_0_0_1_2_11.batchCoord (ix2 b (0 : Fin 1)) 0
      + gather_S262144x1000_S262144x1x1_S262144x1_n_1_0_0_1_2_11.offCoord (ix2 b (0 : Fin 1)) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S262144x1000_S262144x1x1_S262144x1_n_1_0_0_1_2_11.operandBatchingDims
      from List.mem_singleton.mpr rfl)]
    rfl
  | ⟨1, _⟩ =>
    show gather_S262144x1000_S262144x1x1_S262144x1_n_1_0_0_1_2_11.start (ix2 b (0 : Fin 1)) idx 1
      + gather_S262144x1000_S262144x1x1_S262144x1_n_1_0_0_1_2_11.batchCoord (ix2 b (0 : Fin 1)) 1
      + gather_S262144x1000_S262144x1x1_S262144x1_n_1_0_0_1_2_11.offCoord (ix2 b (0 : Fin 1)) 1
        = min (idx (ix3 b (0 : Fin 1) (0 : Fin 1))).toInt.toNat 999
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S262144x1000_S262144x1x1_S262144x1_n_1_0_0_1_2_11.startIndexMap
      from List.mem_singleton.mpr rfl)]
    have hsi : gather_S262144x1000_S262144x1x1_S262144x1_n_1_0_0_1_2_11.siIdx (ix2 b (0 : Fin 1))
        ⟨List.idxOf (1 : Fin 2) gather_S262144x1000_S262144x1x1_S262144x1_n_1_0_0_1_2_11.startIndexMap,
          List.idxOf_lt_length_iff.2 (List.mem_singleton.mpr rfl)⟩ = ix3 b (0 : Fin 1) (0 : Fin 1) := by
      funext c; refine Fin.ext ?_
      match c with
      | ⟨0, _⟩ => rfl
      | ⟨1, _⟩ => rfl
      | ⟨2, _⟩ => rfl
    rw [hsi]
    rfl

/-! ### The row loss and the mean -/

/-- For an in-range class the selected entry is the log-softmax at that class. -/
theorem v33_eq (x0 : FVec Ideal S262144x1004 .f32) (x1 : FVec Ideal S262144x5 .f32) (hr : InRange x1)
    (b : Fin 262144) :
    val_main_v33 (F := Ideal) x0 x1 (ix2 b (0 : Fin 1)) = val_main_v31 (F := Ideal) x0 (ix2 b (classIx x1 b)) := by
  rw [val_main_v33_apply, call1_v12_eq x1 hr b, select_one]
  unfold val_main_call1_v13
  refine (gather_apply (val_main_v31 (F := Ideal) x0) (val_main_call1_v5 (F := Ideal) x1) b).trans ?_
  refine congrArg (val_main_v31 (F := Ideal) x0) (congrArg (fun c : Fin 1000 => ix2 b c) (Fin.ext ?_))
  show min (val_main_call1_v5 (F := Ideal) x1 (ix3 b (0 : Fin 1) (0 : Fin 1))).toInt.toNat 999
    = (classWord x1 b).toNat % 1000
  rw [call1_v5_eq x1 hr b]
  exact clamp_eq _ (hr b).1 (hr b).2

/-- Row b's loss as the reference computes it. -/
theorem row_eq (x0 : FVec Ideal S262144x1004 .f32) (x1 : FVec Ideal S262144x5 .f32) (hr : InRange x1)
    (b : Fin 262144) :
    val_main_v38 (F := Ideal) x0 x1 (ix1 b) = rowR (boxP x0 b) (boxT x1 b) (logits x0 b) (classIx x1 b) := by
  rw [val_main_v38_apply, loc_eq, val_main_v37_apply, val_main_v36_apply, val_main_cst_3_apply, val_main_v35_apply,
    val_main_v34_apply,
    show idx_main_v34 (ix1 b) = ix2 b (0 : Fin 1) from funext fun a => match a with
      | ⟨0, _⟩ => Fin.ext (Nat.div_one _)
      | ⟨1, _⟩ => rfl,
    v33_eq x0 x1 hr b, v31_eq]
  rfl

/-- The reference's result, read at its one index, is the mean of the row losses. -/
theorem ref_value (x0 : FVec Ideal Cert.ReferenceIdeal.S262144x1004 .f32) (x1 : FVec Ideal Cert.ReferenceIdeal.S262144x5 .f32)
    (hr : Cert.LocLoss.InRange x1) (i : Cert.ReferenceIdeal.S_.Idx) :
    Cert.ReferenceIdeal.ReadP.val_main_v40 (F := Ideal) x0 x1 i = Cert.LocLoss.meanR x0 x1 := by
  rw [val_main_v40_apply, val_main_v39_apply]
  unfold meanR
  refine congrArg₂ Ideal.div (congrArg (cZero + ·) ?_) rfl
  refine Fintype.sum_equiv ⟨fun j => j 0, ix1, fun j => (eq_ix1 j).symm, fun _ => rfl⟩ _ _ (fun j => ?_)
  exact (congrArg (val_main_v38 (F := Ideal) x0 x1) (eq_ix1 j)).trans (row_eq x0 x1 hr (j 0))

end Cert.LocLoss.Ref

end
-- ==== Proof.PreDecode.lean ====
/-
  The printed precondition, decoded into per-element facts. The precondition is a conjunction of three
  "all elements" tests: every entry of the first argument has absolute value below +∞, every entry of the
  second argument likewise, and the last column of the second argument, converted to a signed 32-bit
  integer, lies in [0, 1000) on every row. Each test is a reduction by `and` from the constant 1 that came
  out 1, so each element passed its test; an absolute value below +∞ says the entry is neither infinity.
-/
import proofs.«162990_j91070486544852_2_alg».proof.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.LocLoss.Pre

open Idealize.ShloMosaic Idealize.ShloMosaic.ValueIdx
open Cert.Pre_finite_inputs (S262144x1004 S262144x5 S_ S262144x1 S262144)

/-- The scalar shape has one index. -/
instance subsingleton_scalar_idx : Subsingleton S_.Idx := ⟨fun a b => funext fun d => d.elim0⟩

/-- A one-bit word made from a Boolean is 1 exactly when the Boolean is true. -/
theorem ofBool_eq_one {b : Bool} : BitVec.ofBool b = 1#1 ↔ b = true := by cases b <;> decide

/-- The pattern 0x7F800000 denotes +∞. -/
theorem inf_bits : Ideal.ofBits .f32 0x7F800000#32 = (⊤ : EReal) := by
  simp [Ideal.ofBits, Ideal.ieee]

/-- |x| < +∞ says x is neither infinity. -/
theorem finite_of_abs_lt (x : EReal) (h : Ideal.cmp .olt (max x (-x)) ⊤ = 1#1) : x ≠ ⊤ ∧ x ≠ ⊥ := by
  have hlt : max x (-x) < ⊤ := by
    unfold Ideal.cmp at h
    exact of_decide_eq_true (ofBool_eq_one.1 h)
  rw [max_lt_iff] at hlt
  refine ⟨ne_of_lt hlt.1, ?_⟩
  rintro rfl
  rw [EReal.neg_bot] at hlt
  exact lt_irrefl _ hlt.2

variable [Cert.Pre_finite_inputs.Facts]

/-- Every entry of the first argument is finite. -/
theorem out_finite (x0 : FVec Ideal Cert.Pre_finite_inputs.S262144x1004 .f32) (x1 : FVec Ideal Cert.Pre_finite_inputs.S262144x5 .f32)
    (h : Cert.Pre_finite_inputs.fn (F := Ideal) x0 x1 = fun _ => 1#1) (i : Cert.Pre_finite_inputs.S262144x1004.Idx) :
    x0 i ≠ ⊤ ∧ x0 i ≠ ⊥ := by
  have e := congrFun h ix0
  dsimp only [Cert.Pre_finite_inputs.fn, Cert.Pre_finite_inputs.fn_part1] at e
  obtain ⟨e1, -⟩ := IntOp.andi_eq_one.1 e
  obtain ⟨e0, -⟩ := IntOp.andi_eq_one.1 e1
  have p := Host.reduce_andi_all _ _ _ _ _ e0 i
  apply finite_of_abs_lt
  rw [← inf_bits]
  exact p

/-- The last column, cast to a vector, read at row `b`: the second argument's entry `(b, 4)`. -/
theorem column_apply (x1 : FVec Ideal Cert.Pre_finite_inputs.S262144x5 .f32) (b : Fin 262144) :
    shapeCast S262144
        (extractStridedSlice S262144x1 ![0, 4] x1 Cert.Pre_finite_inputs.Facts.slices_S262144x5_S262144x1_0_4)
        Cert.Pre_finite_inputs.Facts.shapeCasts_S262144x1_S262144 (ix1 b)
      = x1 (ix2 b (4 : Fin 5)) := by
  refine (shapeCast_apply _ _ (ix1 b) (ix2 b (0 : Fin 1)) ?_).trans ?_
  · rw [Shape.rowMajor_val_two, Shape.rowMajor_val_one]
    show b.val * 1 + 0 = b.val
    rw [Nat.mul_one, Nat.add_zero]
  · refine extractStridedSlice_apply _ _ _ _ (ix2 b (4 : Fin 5)) ?_
    intro a
    match a with
    | ⟨0, _⟩ => exact (Nat.zero_add _).symm
    | ⟨1, _⟩ => rfl

/-- The class id of every row lies in [0, 1000). -/
theorem class_in_range (x0 : FVec Ideal Cert.Pre_finite_inputs.S262144x1004 .f32) (x1 : FVec Ideal Cert.Pre_finite_inputs.S262144x5 .f32)
    (h : Cert.Pre_finite_inputs.fn (F := Ideal) x0 x1 = fun _ => 1#1) (b : Fin 262144) :
    0 ≤ (FloatOps.fptosi (F := Ideal) 32 (x1 (ix2 b (4 : Fin 5)))).toInt
      ∧ (FloatOps.fptosi (F := Ideal) 32 (x1 (ix2 b (4 : Fin 5)))).toInt < 1000 := by
  have e := congrFun h ix0
  dsimp only [Cert.Pre_finite_inputs.fn, Cert.Pre_finite_inputs.fn_part1] at e
  obtain ⟨-, e2⟩ := IntOp.andi_eq_one.1 e
  have p := Host.reduce_andi_all _ _ _ _ _ e2 (ix1 b)
  obtain ⟨p0, p1⟩ := IntOp.andi_eq_one.1 p
  have q0 := IntOp.cmpi_sge.1 p0
  have q1 := IntOp.cmpi_slt.1 p1
  have c := column_apply x1 b
  have z0 : (0#32 : BitVec 32).toInt = 0 := by decide
  have z1 : (1000#32 : BitVec 32).toInt = 1000 := by decide
  refine ⟨?_, ?_⟩
  · rw [← c, ← z0]; exact q0
  · rw [← c, ← z1]; exact q1

end Cert.LocLoss.Pre

end
-- ==== Proof.lean ====
/-
  The certificate of the localization loss kernel against its jnp reference, over the extended reals.

  Both programs compute the mean, over 262144 rows, of a row loss: the mean squared error between a predicted box
  and the centre/size form of the true box, plus the cross entropy of a thousand logits at the row's class. The
  kernel walks the rows in 256 blocks of 1024, two halves of 128 blocks, keeping a running total per half in a
  one-word scratch and writing it out after the half's last block; the host adds the two words and divides by the
  number of rows. The reference computes every row's loss as arrays and takes their mean.

  The proof reads each program's result as a function of the two argument arrays — the kernel's through the
  generated frame run (what each grid point leaves in the scratch, by induction over the grid; the one write-back
  per half; the two host lines after the region), the reference's stage by stage — and shows the two functions
  equal: row by row the two spellings of the loss agree on finite logits (the one step that needs finiteness is
  `-(a - L) = L - a`, which fails at `⊤ - ⊤`), the class index selects the same logit because the precondition
  keeps every class in `[0, 1000)` (the kernel clamps, the reference wraps negative indices and masks the rest),
  and addition of extended reals is commutative and associative, so the blockwise totals are the sum over all rows.
  The ideal pass rewrote nothing, so `preserves` is trivial; the three frames are the generated frames and the
  reference's run with its result dropped.
-/
import proofs.«162990_j91070486544852_2_alg».proof.Defs
import proofs.«162990_j91070486544852_2_alg».proof.Proof.Gen.Kernel
import proofs.«162990_j91070486544852_2_alg».proof.Proof.Gen.Kernel.Skeleton
import proofs.«162990_j91070486544852_2_alg».proof.Proof.Gen.Kernel.Launch
import proofs.«162990_j91070486544852_2_alg».proof.Proof.Gen.Kernel.Points
import proofs.«162990_j91070486544852_2_alg».proof.Proof.Gen.Kernel.Frame
import proofs.«162990_j91070486544852_2_alg».proof.Proof.Gen.KernelIdeal
import proofs.«162990_j91070486544852_2_alg».proof.Proof.Gen.KernelIdeal.Skeleton
import proofs.«162990_j91070486544852_2_alg».proof.Proof.Gen.KernelIdeal.Launch
import proofs.«162990_j91070486544852_2_alg».proof.Proof.Gen.KernelIdeal.Points
import proofs.«162990_j91070486544852_2_alg».proof.Proof.Gen.KernelIdeal.Frame
import proofs.«162990_j91070486544852_2_alg».proof.Proof.Gen.ReferenceIdeal
import proofs.«162990_j91070486544852_2_alg».proof.Proof.Gen.Pre_finite_inputs
import proofs.«162990_j91070486544852_2_alg».proof.Proof.KRun
import proofs.«162990_j91070486544852_2_alg».proof.Proof.KMean
import proofs.«162990_j91070486544852_2_alg».proof.Proof.HRun
import proofs.«162990_j91070486544852_2_alg».proof.Proof.RefValue
import proofs.«162990_j91070486544852_2_alg».proof.Proof.PreDecode
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HRun.run (F := Ideal) m ρ)

theorem preserves : Cert.preserves_Kernel_KernelIdeal := trivial

/-- From memories agreeing on the arguments both programs end at the mean row loss: the kernel at its own
    spelling of it, the reference at its own, and the two spellings agree where the logits are finite. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KVal.kres (F := Ideal) m c, Cert.KernelIdeal.KVal.run (F := Ideal) m ρ, ?_⟩
  refine (θ_run Cert.ReferenceIdeal.defs _ _).mono (fun _ h c => ⟨(h c).1.trans ?_, (h c).2⟩)
    (Cert.ReferenceIdeal.HRun.run (F := Ideal) m' ρ')
  have hf := Cert.LocLoss.Pre.out_finite _ _ (hpre c)
  have hr : Cert.LocLoss.InRange (m ((c.tc : Thread Cert.KernelIdeal.nD Cert.KernelIdeal.τ).loc Cert.KernelIdeal.main_arg1)) :=
    fun b => Cert.LocLoss.Pre.class_in_range _ _ (hpre c) b
  rw [(hagree c).1, (hagree c).2]
  funext i
  rw [Cert.LocLoss.Ref.ref_value _ _ hr i]
  show _ = Cert.KernelIdeal.KVal.kres (F := Ideal) m c i
  rw [Cert.KernelIdeal.KVal.kres_eq m c hr i]
  exact Cert.LocLoss.meanR_eq_meanK _ _ hf

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
